-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S384 : Shape := ⟨1, ![384]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128x128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S384 .f32) (main_arg5 : FVec F S384x128 .f32) (main_arg6 : FVec F S128 .f32) (main_arg7 : FVec F S128 .f32) (main_arg8 : FVec F S128 .f32) (main_arg9 : FVec F S128x128 .f32) (main_arg10 : FVec F S128 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x128 .f32) (main_arg1 : FVec F S262144x128 .f32) (main_arg2 : FVec F S262144x128 .f32) (main_arg3 : FVec F S384 .f32) (main_arg4 : FVec F S384 .f32) (main_arg5 : FVec F S384x128 .f32) (main_arg6 : FVec F S128 .f32) (main_arg7 : FVec F S128 .f32) (main_arg8 : FVec F S128 .f32) (main_arg9 : FVec F S128x128 .f32) (main_arg10 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_arg9 main_arg10 main_v13 main_v16
-- ==== Kernel.lean ====
abbrev S262144x128 : Shape := ⟨2, ![262144, 128]⟩
abbrev S384 : Shape := ⟨1, ![384]⟩
abbrev S384x128 : Shape := ⟨2, ![384, 128]⟩
abbrev S128 : Shape := ⟨1, ![128]⟩
abbrev S128x128 : Shape := ⟨2, ![128, 128]⟩
abbrev S4096x128 : Shape := ⟨2, ![4096, 128]⟩
abbrev S128x16 : Shape := ⟨2, ![128, 16]⟩
abbrev S16x128 : Shape := ⟨2, ![16, 128]⟩
abbrev S4096x16 : Shape := ⟨2, ![4096, 16]⟩
abbrev S1x128 : Shape := ⟨2, ![1, 128]⟩

abbrev nBuf : Space → Nat
  | .hbm => 12
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S384, .f32⟩
  | .hbm, ⟨4, _⟩ => ⟨S384, .f32⟩
  | .hbm, ⟨5, _⟩ => ⟨S384x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S384, .f32⟩
  | .local _ .vmem, ⟨7, _⟩ => ⟨S384, .f32⟩
  | .local _ .vmem, ⟨8, _⟩ => ⟨S384x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S4096x128, .f32⟩
  | .local _ .vmem, ⟨15, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  inb_S384_S384_0 : ∀ a, (![0] : Fin 1 → Nat) a + S384.size a ≤ S384.size a
  h_S384 : 0 < S384.numel
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  iota_S128x16_d0_w32 : S128x16.Iotas .tc 32 [0]
  iota_S128x16_d1_w32 : S128x16.Iotas .tc 32 [1]
  natLt_1_32 : 1 < 32
  iota_S16x128_d1_w32 : S16x128.Iotas .tc 32 [1]
  iota_S16x128_d0_w32 : S16x128.Iotas .tc 32 [0]
  slices_S384_o0_S128 : S384.Slices ![0] S128
  shapeCasts_S128_S1x128 : S128.ShapeCasts S1x128
  broadcasts_S1x128_S4096x128 : S1x128.Broadcasts S4096x128
  slices_S384_o128_S128 : S384.Slices ![128] S128
  slices_S384_o256_S128 : S384.Slices ![256] S128
  slices_S384x128_o0_0_S128x128 : S384x128.Slices ![0, 0] S128x128
  slices_S384x128_o128_0_S128x128 : S384x128.Slices ![128, 0] S128x128
  slices_S384x128_o256_0_S128x128 : S384x128.Slices ![256, 0] S128x128
  dot_S4096x128_S128x16_S4096x16_1_0_0_1_n_n_wf : DotDims.WF S4096x128 S128x16 S4096x16 [1] [0] [0] [1] [] []
  dot_S4096x16_S16x128_S4096x128_1_0_0_1_n_n_wf : DotDims.WF S4096x16 S16x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S262144x128.size a
  hwx0_11 : ∀ i : grid0.Coords, EltTy.bits .f32 = 32 ∨ (Rect.block (s := S262144x128) S4096x128.size (cc0_transform_11 i) (hinb0_11 i)).WholeWords (EltTy.packing .f32)

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x128 : Shape := ⟨2, ![262144, 128]⟩
abbrev S384 : Shape := ⟨1, ![384]⟩
abbrev S384x128 : Shape := ⟨2, ![384, 128]⟩
abbrev S128 : Shape := ⟨1, ![128]⟩
abbrev S128x128 : Shape := ⟨2, ![128, 128]⟩
abbrev S262144x384 : Shape := ⟨2, ![262144, 384]⟩
abbrev S262144x48x8 : Shape := ⟨3, ![262144, 48, 8]⟩
abbrev S_ : Shape := ⟨0, ![]⟩
abbrev S262144x48 : Shape := ⟨2, ![262144, 48]⟩
abbrev S262144x48x1 : Shape := ⟨3, ![262144, 48, 1]⟩
abbrev S1x384 : Shape := ⟨2, ![1, 384]⟩
abbrev S1x128 : Shape := ⟨2, ![1, 128]⟩
abbrev S262144x16x8 : Shape := ⟨3, ![262144, 16, 8]⟩
abbrev S262144x16 : Shape := ⟨2, ![262144, 16]⟩
abbrev S262144x16x1 : Shape := ⟨3, ![262144, 16, 1]⟩

abbrev nBuf : Space → Nat
  | .hbm => 89
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S384, .f32⟩
  | .hbm, ⟨4, _⟩ => ⟨S384, .f32⟩
  | .hbm, ⟨5, _⟩ => ⟨S384x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S262144x384, .f32⟩
  | .hbm, ⟨12, _⟩ => ⟨S262144x48x8, .f32⟩
  | .hbm, ⟨13, _⟩ => ⟨S_, .f32⟩
  | .hbm, ⟨14, _⟩ => ⟨S262144x48, .f32⟩
  | .hbm, ⟨15, _⟩ => ⟨S262144x48x1, .f32⟩
  | .hbm, ⟨16, _⟩ => ⟨S_, .f32⟩
  | .hbm, ⟨17, _⟩ => ⟨S262144x48x1, .f32⟩
  | .hbm, ⟨18, _⟩ => ⟨S262144x48x1, .f32⟩
  | .hbm, ⟨19, _⟩ => ⟨S262144x48x8, .f32⟩
  | .hbm, ⟨20, _⟩ => ⟨S262144x48x8, .f32⟩
  | .hbm, ⟨21, _⟩ => ⟨S262144x48x8, .f32⟩
  | .hbm, ⟨22, _⟩ => ⟨S_, .f32⟩
  | .hbm, ⟨23, _⟩ => ⟨S262144x48, .f32⟩
  | .hbm, ⟨24, _⟩ => ⟨S262144x48x1, .f32⟩
  | .hbm, ⟨25, _⟩ => ⟨S_, .f32⟩
  | .hbm, ⟨26, _⟩ => ⟨S262144x48x1, .f32⟩
  | .hbm, ⟨27, _⟩ => ⟨S262144x48x1, .f32⟩
  | .hbm, ⟨28, _⟩ => ⟨S262144x48x8, .f32⟩
  | .hbm, ⟨29, _⟩ => ⟨S262144x48x8, .f32⟩
  | .hbm, ⟨30, _⟩ => ⟨S_, .f32⟩
  | .hbm, ⟨31, _⟩ => ⟨S262144x48x1, .f32⟩
  | .hbm, ⟨32, _⟩ => ⟨S262144x48x1, .f32⟩
  | .hbm, ⟨33, _⟩ => ⟨S262144x48x1, .f32⟩
  | .hbm, ⟨34, _⟩ => ⟨S262144x48x8, .f32⟩
  | .hbm, ⟨35, _⟩ => ⟨S262144x48x8, .f32⟩
  | .hbm, ⟨36, _⟩ => ⟨S262144x384, .f32⟩
  | .hbm, ⟨37, _⟩ => ⟨S1x384, .f32⟩
  | .hbm, ⟨38, _⟩ => ⟨S262144x384, .f32⟩
  | .hbm, ⟨39, _⟩ => ⟨S262144x384, .f32⟩
  | .hbm, ⟨40, _⟩ => ⟨S1x384, .f32⟩
  | .hbm, ⟨41, _⟩ => ⟨S262144x384, .f32⟩
  | .hbm, ⟨42, _⟩ => ⟨S262144x384, .f32⟩
  | .hbm, ⟨43, _⟩ => ⟨S_, .f32⟩
  | .hbm, ⟨44, _⟩ => ⟨S262144x384, .f32⟩
  | .hbm, ⟨45, _⟩ => ⟨S262144x384, .f32⟩
  | .hbm, ⟨46, _⟩ => ⟨S262144x128, .f32⟩
  | .hbm, ⟨47, _⟩ => ⟨S1x128, .f32⟩
  | .hbm, ⟨48, _⟩ => ⟨S262144x128, .f32⟩
  | .hbm, ⟨49, _⟩ => ⟨S262144x128, .f32⟩
  | .hbm, ⟨50, _⟩ => ⟨S262144x16x8, .f32⟩
  | .hbm, ⟨51, _⟩ => ⟨S_, .f32⟩
  | .hbm, ⟨52, _⟩ => ⟨S262144x16, .f32⟩
  | .hbm, ⟨53, _⟩ => ⟨S262144x16x1, .f32⟩
  | .hbm, ⟨54, _⟩ => ⟨S_, .f32⟩
  | .hbm, ⟨55, _⟩ => ⟨S262144x16x1, .f32⟩
  | .hbm, ⟨56, _⟩ => ⟨S262144x16x1, .f32⟩
  | .hbm, ⟨57, _⟩ => ⟨S262144x16x8, .f32⟩
  | .hbm, ⟨58, _⟩ => ⟨S262144x16x8, .f32⟩
  | .hbm, ⟨59, _⟩ => ⟨S262144x16x8, .f32⟩
  | .hbm, ⟨60, _⟩ => ⟨S_, .f32⟩
  | .hbm, ⟨61, _⟩ => ⟨S262144x16, .f32⟩
  | .hbm, ⟨62, _⟩ => ⟨S262144x16x1, .f32⟩
  | .hbm, ⟨63, _⟩ => ⟨S_, .f32⟩
  | .hbm, ⟨64, _⟩ => ⟨S262144x16x1, .f32⟩
  | .hbm, ⟨65, _⟩ => ⟨S262144x16x1, .f32⟩
  | .hbm, ⟨66, _⟩ => ⟨S262144x16x8, .f32⟩
  | .hbm, ⟨67, _⟩ => ⟨S262144x16x8, .f32⟩
  | .hbm, ⟨68, _⟩ => ⟨S_, .f32⟩
  | .hbm, ⟨69, _⟩ => ⟨S262144x16x1, .f32⟩
  | .hbm, ⟨70, _⟩ => ⟨S262144x16x1, .f32⟩
  | .hbm, ⟨71, _⟩ => ⟨S262144x16x1, .f32⟩
  | .hbm, ⟨72, _⟩ => ⟨S262144x16x8, .f32⟩
  | .hbm, ⟨73, _⟩ => ⟨S262144x16x8, .f32⟩
  | .hbm, ⟨74, _⟩ => ⟨S262144x128, .f32⟩
  | .hbm, ⟨75, _⟩ => ⟨S1x128, .f32⟩
  | .hbm, ⟨76, _⟩ => ⟨S262144x128, .f32⟩
  | .hbm, ⟨77, _⟩ => ⟨S262144x128, .f32⟩
  | .hbm, ⟨78, _⟩ => ⟨S1x128, .f32⟩
  | .hbm, ⟨79, _⟩ => ⟨S262144x128, .f32⟩
  | .hbm, ⟨80, _⟩ => ⟨S262144x128, .f32⟩
  | .hbm, ⟨81, _⟩ => ⟨S_, .f32⟩
  | .hbm, ⟨82, _⟩ => ⟨S262144x128, .f32⟩
  | .hbm, ⟨83, _⟩ => ⟨S262144x128, .f32⟩
  | .hbm, ⟨84, _⟩ => ⟨S262144x128, .f32⟩
  | .hbm, ⟨85, _⟩ => ⟨S1x128, .f32⟩
  | .hbm, ⟨86, _⟩ => ⟨S262144x128, .f32⟩
  | .hbm, ⟨87, _⟩ => ⟨S262144x128, .f32⟩
  | .hbm, ⟨88, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  concatenates_S262144x128_S262144x128_S262144x128_S262144x384_d1 : Shape.Concatenates [S262144x128, S262144x128, S262144x128] S262144x384 1
  shapeCasts_S262144x384_S262144x48x8 : S262144x384.ShapeCasts S262144x48x8
  reducesTo_S262144x48x8_S262144x48_d2 : S262144x48x8.ReducesTo [2] S262144x48
  h_S_ : 0 < S_.numel
  bcast_S262144x48_S262144x48x1_0_1 : S262144x48.BroadcastsInDim S262144x48x1 (![0, 1] : Fin 2 → Fin S262144x48x1.rank)
  bcast_S_S262144x48x1 : S_.BroadcastsInDim S262144x48x1 (![] : Fin 0 → Fin S262144x48x1.rank)
  bcast_S262144x48x1_S262144x48x8_0_1_2 : S262144x48x1.BroadcastsInDim S262144x48x8 (![0, 1, 2] : Fin 3 → Fin S262144x48x8.rank)
  shapeCasts_S262144x48x8_S262144x384 : S262144x48x8.ShapeCasts S262144x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  bcast_S_S262144x384 : S_.BroadcastsInDim S262144x384 (![] : Fin 0 → Fin S262144x384.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S262144x16x8 : S262144x128.ShapeCasts S262144x16x8
  reducesTo_S262144x16x8_S262144x16_d2 : S262144x16x8.ReducesTo [2] S262144x16
  bcast_S262144x16_S262144x16x1_0_1 : S262144x16.BroadcastsInDim S262144x16x1 (![0, 1] : Fin 2 → Fin S262144x16x1.rank)
  bcast_S_S262144x16x1 : S_.BroadcastsInDim S262144x16x1 (![] : Fin 0 → Fin S262144x16x1.rank)
  bcast_S262144x16x1_S262144x16x8_0_1_2 : S262144x16x1.BroadcastsInDim S262144x16x8 (![0, 1, 2] : Fin 3 → Fin S262144x16x8.rank)
  shapeCasts_S262144x16x8_S262144x128 : S262144x16x8.ShapeCasts S262144x128
  bcast_S_S262144x128 : S_.BroadcastsInDim S262144x128 (![] : Fin 0 → Fin S262144x128.rank)
  dot_S262144x384_S384x128_S262144x128_1_0_0_1_n_n_wf : DotDims.WF S262144x384 S384x128 S262144x128 [1] [0] [0] [1] [] []
  dot_S262144x128_S128x128_S262144x128_1_0_0_1_n_n_wf : DotDims.WF S262144x128 S128x128 S262144x128 [1] [0] [0] [1] [] []

variable [Facts₀]

def dot_S262144x384_S384x128_S262144x128_1_0_0_1_n_n : DotDims S262144x384 S384x128 S262144x128 where
  lhsContracting := [1]
  rhsContracting := [0]
  lhsNonContracting := [0]
  rhsNonContracting := [1]
  lhsBatch := []
  rhsBatch := []
  wf := dot_S262144x384_S384x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.FiniteInputs.lean ====
/-
  From the precondition `finite_inputs` to "every entry of every input array is a real number".

  The precondition computes, for each of the eleven argument arrays a, the conjunction over all
  indices of |a i| < +∞ (the pattern 0x7F800000 denotes +∞), and takes the conjunction of the eleven
  results. At the ideal instance a value is an extended real, |x| is max x (-x), and the comparison
  is that of the linear order: |x| < ⊤ rules out x = ⊤ and x = ⊥, so x is the image of a real.
-/
import proofs.«164875_j15401752724192_2_alg».proof.Pre_finite_inputs
import Idealize.ShloMosaic.PureOps.Ideal
import Idealize.ShloMosaic.Lib.ReduceAll
import Idealize.ShloMosaic.Lib.ValueIdx

noncomputable section

open Idealize.ShloMosaic

namespace Cert.FiniteInputs

open Cert.Pre_finite_inputs

/-- The rank-0 shape has one index. -/
instance subsingleton_S_ : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- `jnp.all(|a| < +∞) = 1` says every entry of `a` is a real, over any shape. -/
theorem all_real {S : Shape} {axes : List (Fin S.rank)}
    (hb : S_.BroadcastsInDim S (![] : Fin 0 → Fin S.rank)) (hr : S.ReducesTo axes S_) (hu : 0 < S_.numel)
    (a : FVec Ideal S .f32) (j : S_.Idx)
    (h : Host.reduce IntOp.andi
          (cmpf .olt (Host.absf a) (broadcastInDim S ![] hb (constant (F := Ideal) S_ .f32 0x7F800000#32)))
          (constantI S_ 1 1#1) hr hu j = 1#1) :
    ∀ i, ∃ r : ℝ, a i = (r : EReal) := by
  intro i
  have e := Host.reduce_andi_all _ _ hr hu j h i
  exact real_of_abs_lt_inf (a i) e

/-- The precondition decoded: every entry of each of the eleven input arrays is a real number. -/
theorem real_entries [Facts]
    (a0 a1 a2 : FVec Ideal S262144x128 .f32) (a3 a4 : FVec Ideal S384 .f32)
    (a5 : FVec Ideal S384x128 .f32) (a6 a7 a8 : FVec Ideal S128 .f32)
    (a9 : FVec Ideal S128x128 .f32) (a10 : FVec Ideal S128 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) := by
  have e := congrFun h ValueIdx.ix0
  dsimp only [fn, fn_part1, fn_part2, fn_part3] at e
  simp only [andi, IntOp.andi_eq_one] at e
  obtain ⟨⟨⟨⟨⟨⟨⟨⟨⟨⟨h0, h1⟩, h2⟩, h3⟩, h4⟩, h5⟩, h6⟩, h7⟩, h8⟩, h9⟩, h10⟩ := e
  exact ⟨all_real _ _ _ a0 _ h0, all_real _ _ _ a1 _ h1, all_real _ _ _ a2 _ h2, all_real _ _ _ a3 _ h3,
    all_real _ _ _ a4 _ h4, all_real _ _ _ a5 _ h5, all_real _ _ _ a6 _ h6, all_real _ _ _ a7 _ h7,
    all_real _ _ _ a8 _ h8, all_real _ _ _ a9 _ h9, all_real _ _ _ a10 _ h10⟩

end Cert.FiniteInputs

end
-- ==== Proof.RowBlocks.lean ====
/- From the blocks the grid points write to the whole output array, and each
   input block as entries of its argument. The output array `main_v0 : f32[262144,128]` and the three row-blocked
   arguments `main_arg0`, `main_arg1`, `main_arg2 : f32[262144,128]` are cut in 64 blocks of 4096 rows; grid point `t`
   has rows `4096·t … 4096·t + 4095`, all 128 columns. The other eight arguments are passed whole at every point. The
   body's result on a point's blocks is kept abstract (the generated `Gen.out0_11`): `wholeOut` says that row `r` of the
   output is row `r % 4096` of the body's result on the blocks of point `r / 4096`. -/
import proofs.«164875_j15401752724192_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.RowBlocks

open Cert.KernelIdeal Cert.KernelIdeal.Gen Cert.KernelIdeal.Value

variable {F : FTy → Type} [FloatOps F]
variable (m : (ℓ : Loc nD τ sig) → Buf (Elt F) ℓ) (ρ : Dev nD → PrngReg)

/-! ## The index maps, decided over the 64 grid points -/

/-- The row-blocked windows (the three arguments 0, 1, 2 and the output) are at block `(t, 0)` at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The other eight windows are at block index 0 on every axis at every point: the block is the whole array. -/
theorem idx_whole : ∀ t : Fin cfg0.N,
    win0_3.index t (0 : Fin 1) = 0 ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## The whole output array -/

/-- The grid point whose block holds row `(i 0)` of a [262144,128] array: `(i 0) / 4096`. -/
def pointOf (i : S262144x128.Idx) : Fin cfg0.N :=
  ⟨(i 0).val / 4096, by have h := ValueIdx.idx2_lt0 i; have hN : cfg0.N = 64 := N_0; omega⟩

/-- The place of entry `i` of a [262144,128] array inside its block: row `(i 0) % 4096`, the same column. -/
def rowIn (i : S262144x128.Idx) : S4096x128.Idx :=
  ValueIdx.ix2 (⟨(i 0).val % 4096, Nat.mod_lt _ (by decide)⟩ : Fin 4096) (⟨(i 1).val, ValueIdx.idx2_lt1 i⟩ : Fin 128)

theorem pointOf_val (i : S262144x128.Idx) : (pointOf i).val = (i 0).val / 4096 := rfl
theorem rowIn_row (i : S262144x128.Idx) : ((rowIn i) 0).val = (i 0).val % 4096 := rfl
theorem rowIn_col (i : S262144x128.Idx) : ((rowIn i) 1).val = (i 1).val := rfl

/-- The body's result at grid point `t`: `Gen.out0_11` of the eleven input blocks at `t`. -/
def blockOut (c : Dev nD) (t : Fin cfg0.N) : Vec F S4096x128 .f32 :=
  out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- THE WHOLE OUTPUT ARRAY as one function of the input blocks: entry `i` is entry `rowIn i` of the body's result at
    the point `pointOf i`. -/
def wholeOut (c : Dev nD) : S262144x128.Idx → Elt F .f32 := fun i => blockOut m c (pointOf i) (rowIn i)

theorem wholeOut_apply (c : Dev nD) (i : S262144x128.Idx) :
    wholeOut m c i = out0_11 (iblk m c 0 (pointOf i)) (iblk m c 1 (pointOf i)) (iblk m c 2 (pointOf i)) (iblk m c 3 (pointOf i)) (iblk m c 4 (pointOf i)) (iblk m c 5 (pointOf i)) (iblk m c 6 (pointOf i)) (iblk m c 7 (pointOf i)) (iblk m c 8 (pointOf i)) (iblk m c 9 (pointOf i)) (iblk m c 10 (pointOf i)) (rowIn i) := rfl

/-- An entry of block `t` of a [262144,128] array cut in blocks of 4096 rows lies in point `t`'s rows, at its own place. -/
theorem point_row_of_block (t : Fin cfg0.N) (j : S4096x128.Idx) (i : S262144x128.Idx)
    (h0 : (i 0).val = t.val * 4096 + 1 * (j 0).val) (h1 : (i 1).val = 0 * 128 + 1 * (j 1).val) :
    pointOf i = t ∧ rowIn i = j := by
  have hj0 : (j 0).val < 4096 := ValueIdx.idx2_lt0 j
  refine ⟨Fin.ext ?_, funext fun a => Fin.ext ?_⟩
  · show (i 0).val / 4096 = t.val
    omega
  · match a with
    | ⟨0, _⟩ => show (i 0).val % 4096 = (j 0).val; omega
    | ⟨1, _⟩ => show (i 1).val = (j 1).val; omega

/-- Entry `j` of block `t` of `wholeOut` is entry `j` of the body's result at point `t`. -/
theorem wholeOut_block (c : Dev nD) (t : Fin cfg0.N) (j : S4096x128.Idx) :
    wholeOut m c (((cfg0.win 11).blk t).view.emb j) = blockOut m c t j := by
  obtain ⟨-, -, -, -, -, -, e0, e1⟩ := idx_rows t
  obtain ⟨hp, hr⟩ := point_row_of_block t j (((cfg0.win 11).blk t).view.emb j)
    (by show win0_11.index t (0 : Fin 2) * 4096 + 1 * (j 0).val = _; rw [e0])
    (by show win0_11.index t (1 : Fin 2) * 128 + 1 * (j 1).val = _; rw [e1])
  unfold wholeOut
  rw [hp, hr]

/-- A block's contents `B` are block `t` of an array `G` once `G` at the block's entries is `B` (for any `G` and `B`). -/
theorem cut_eq_read_blk (t : Fin cfg0.N) (G : S262144x128.Idx → Elt F .f32) (B : Vec F S4096x128 .f32)
    (h : ∀ j : S4096x128.Idx, G (((cfg0.win 11).blk t).view.emb j) = B j) :
    (cfg0.win 11).cut (grid0.coords t) B = ((cfg0.win 11).blk t).view.read (Elt F) G := by
  funext j
  rw [View.read_apply]
  exact (h j).symm

/-- WHAT POINT `t` WRITES BACK is block `t` of `wholeOut`. -/
theorem flushed_eq (c : Dev nD) (t : Fin cfg0.N) :
    (dats m 0 c).flushed 11 t = ((cfg0.win 11).blk t).view.read (Elt F) (wholeOut m c) := by
  rw [Value.flushed11]
  exact cut_eq_read_blk t (wholeOut m c) (blockOut m c t) (wholeOut_block m c t)

/-- An index of the array is in point `t`'s block iff each coordinate is in the block's range on its axis. -/
theorem mem_blk (t : Fin cfg0.N) (i : S262144x128.Idx) :
    i ∈ ((cfg0.win 11).blk t).view.set ↔ ∀ a : Fin 2, win0_11.index t a * S4096x128.size a ≤ (i a).val ∧ (i a).val < win0_11.index t a * S4096x128.size a + S4096x128.size a := by
  show i ∈ ((View.whole main_v0).slice (win0_11.rect t)).set ↔ _
  rw [View.set_slice_whole, Rect.mem_set_unit]
  exact Iff.rfl

/-- EVERY ENTRY of the output array is in the block of the point that has its row. -/
theorem cover (i : S262144x128.Idx) :
    ∃ t : Fin cfg0.N, (cfg0.win 11).flush t = true ∧ i ∈ ((cfg0.win 11).blk t).view.set := by
  refine ⟨pointOf i, flush0_11 _, ?_⟩
  rw [mem_blk]
  obtain ⟨-, -, -, -, -, -, e0, e1⟩ := idx_rows (pointOf i)
  have hp : (pointOf i).val = (i 0).val / 4096 := rfl
  have hi1 : (i 1).val < 128 := ValueIdx.idx2_lt1 i
  intro a
  match a with
  | ⟨0, _⟩ => show win0_11.index (pointOf i) (0 : Fin 2) * 4096 ≤ (i 0).val ∧ (i 0).val < win0_11.index (pointOf i) (0 : Fin 2) * 4096 + 4096; omega
  | ⟨1, _⟩ => show win0_11.index (pointOf i) (1 : Fin 2) * 128 ≤ (i 1).val ∧ (i 1).val < win0_11.index (pointOf i) (1 : Fin 2) * 128 + 128; omega

/-- THE OUTPUT ARRAY after the run is `wholeOut`. -/
theorem final (c : Dev nD) : (dats m 0 c).arrAt 11 cfg0.N = wholeOut m c :=
  (dats m 0 c).arrAt_eq_of_cover 11 (wholeOut m c) (fun t _ => flushed_eq m c t) cover

/-! ## The run, read -/

/-- The frame run re-posted: the output array at `wholeOut`, the arguments unchanged. -/
theorem run : θ_run defs (onTc (τ := τ) (main (F := F))) ⟨m, fun _ => 0, ρ⟩ fun r => ∀ c : Dev nD,
      r.2.mem ((c : Thread nD τ).loc main_v0) = wholeOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

/-! ## The input blocks, entry by entry -/

/-- Row `p` of block `t` is a row of the [262144,128] array. -/
theorem row_lt (t : Fin cfg0.N) (p : Fin 4096) : 4096 * t.val + p.val < 262144 := by
  have h := t.isLt; have hp := p.isLt; have hN : cfg0.N = 64 := N_0; omega

/-- Window 0's block at point `t` is rows `4096·t … 4096·t + 4095` of `main_arg0`. -/
theorem iblk_rows0 (c : Dev nD) (t : Fin cfg0.N) (p : Fin 4096) (q : Fin 128) :
    (iblk m c 0 t : Vec F S4096x128 .f32) (ValueIdx.ix2 p q)
      = (m ((c : Thread nD τ).loc main_arg0) : S262144x128.Idx → Elt F .f32)
          (ValueIdx.ix2 (⟨4096 * t.val + p.val, row_lt t p⟩ : Fin 262144) q) := by
  obtain ⟨e0, e1, -⟩ := idx_rows t
  unfold iblk
  rw [View.read_apply]
  show V m c main_arg0 _ = m (c.tc.loc main_arg0) _
  unfold V
  congr 1
  funext a
  apply Fin.ext
  match a with
  | ⟨0, _⟩ => show win0_0.index t (0 : Fin 2) * 4096 + 1 * p.val = 4096 * t.val + p.val; rw [e0]; omega
  | ⟨1, _⟩ => show win0_0.index t (1 : Fin 2) * 128 + 1 * q.val = q.val; rw [e1]; omega

/-- Window 1's block at point `t` is rows `4096·t … 4096·t + 4095` of `main_arg1`. -/
theorem iblk_rows1 (c : Dev nD) (t : Fin cfg0.N) (p : Fin 4096) (q : Fin 128) :
    (iblk m c 1 t : Vec F S4096x128 .f32) (ValueIdx.ix2 p q)
      = (m ((c : Thread nD τ).loc main_arg1) : S262144x128.Idx → Elt F .f32)
          (ValueIdx.ix2 (⟨4096 * t.val + p.val, row_lt t p⟩ : Fin 262144) q) := by
  obtain ⟨-, -, e0, e1, -⟩ := idx_rows t
  unfold iblk
  rw [View.read_apply]
  show V m c main_arg1 _ = m (c.tc.loc main_arg1) _
  unfold V
  congr 1
  funext a
  apply Fin.ext
  match a with
  | ⟨0, _⟩ => show win0_1.index t (0 : Fin 2) * 4096 + 1 * p.val = 4096 * t.val + p.val; rw [e0]; omega
  | ⟨1, _⟩ => show win0_1.index t (1 : Fin 2) * 128 + 1 * q.val = q.val; rw [e1]; omega

/-- Window 2's block at point `t` is rows `4096·t … 4096·t + 4095` of `main_arg2`. -/
theorem iblk_rows2 (c : Dev nD) (t : Fin cfg0.N) (p : Fin 4096) (q : Fin 128) :
    (iblk m c 2 t : Vec F S4096x128 .f32) (ValueIdx.ix2 p q)
      = (m ((c : Thread nD τ).loc main_arg2) : S262144x128.Idx → Elt F .f32)
          (ValueIdx.ix2 (⟨4096 * t.val + p.val, row_lt t p⟩ : Fin 262144) q) := by
  obtain ⟨-, -, -, -, e0, e1, -⟩ := idx_rows t
  unfold iblk
  rw [View.read_apply]
  show V m c main_arg2 _ = m (c.tc.loc main_arg2) _
  unfold V
  congr 1
  funext a
  apply Fin.ext
  match a with
  | ⟨0, _⟩ => show win0_2.index t (0 : Fin 2) * 4096 + 1 * p.val = 4096 * t.val + p.val; rw [e0]; omega
  | ⟨1, _⟩ => show win0_2.index t (1 : Fin 2) * 128 + 1 * q.val = q.val; rw [e1]; omega

/-- The same read at an entry `i` of the whole array: the row of `i`, at any column `q`, in the block of `i`'s point is
    that row of `main_arg0`. -/
theorem iblk_rows0_at (c : Dev nD) (i : S262144x128.Idx) (q : Fin 128) :
    (iblk m c 0 (pointOf i) : Vec F S4096x128 .f32) (ValueIdx.ix2 (⟨(i 0).val % 4096, Nat.mod_lt _ (by decide)⟩ : Fin 4096) q)
      = (m ((c : Thread nD τ).loc main_arg0) : S262144x128.Idx → Elt F .f32)
          (ValueIdx.ix2 (⟨(i 0).val, ValueIdx.idx2_lt0 i⟩ : Fin 262144) q) := by
  refine (iblk_rows0 m c (pointOf i) ⟨(i 0).val % 4096, Nat.mod_lt _ (by decide)⟩ q).trans (congrArg _ ?_)
  congr 1
  apply Fin.ext
  show 4096 * ((i 0).val / 4096) + (i 0).val % 4096 = (i 0).val
  omega

/-- The same read at an entry `i` of the whole array: the row of `i`, at any column `q`, in the block of `i`'s point is
    that row of `main_arg1`. -/
theorem iblk_rows1_at (c : Dev nD) (i : S262144x128.Idx) (q : Fin 128) :
    (iblk m c 1 (pointOf i) : Vec F S4096x128 .f32) (ValueIdx.ix2 (⟨(i 0).val % 4096, Nat.mod_lt _ (by decide)⟩ : Fin 4096) q)
      = (m ((c : Thread nD τ).loc main_arg1) : S262144x128.Idx → Elt F .f32)
          (ValueIdx.ix2 (⟨(i 0).val, ValueIdx.idx2_lt0 i⟩ : Fin 262144) q) := by
  refine (iblk_rows1 m c (pointOf i) ⟨(i 0).val % 4096, Nat.mod_lt _ (by decide)⟩ q).trans (congrArg _ ?_)
  congr 1
  apply Fin.ext
  show 4096 * ((i 0).val / 4096) + (i 0).val % 4096 = (i 0).val
  omega

/-- The same read at an entry `i` of the whole array: the row of `i`, at any column `q`, in the block of `i`'s point is
    that row of `main_arg2`. -/
theorem iblk_rows2_at (c : Dev nD) (i : S262144x128.Idx) (q : Fin 128) :
    (iblk m c 2 (pointOf i) : Vec F S4096x128 .f32) (ValueIdx.ix2 (⟨(i 0).val % 4096, Nat.mod_lt _ (by decide)⟩ : Fin 4096) q)
      = (m ((c : Thread nD τ).loc main_arg2) : S262144x128.Idx → Elt F .f32)
          (ValueIdx.ix2 (⟨(i 0).val, ValueIdx.idx2_lt0 i⟩ : Fin 262144) q) := by
  refine (iblk_rows2 m c (pointOf i) ⟨(i 0).val % 4096, Nat.mod_lt _ (by decide)⟩ q).trans (congrArg _ ?_)
  congr 1
  apply Fin.ext
  show 4096 * ((i 0).val / 4096) + (i 0).val % 4096 = (i 0).val
  omega

/-- Window 3's block at every point is the whole of `main_arg3`. -/
theorem iblk_whole3 (c : Dev nD) (t : Fin cfg0.N) :
    (iblk m c 3 t : Vec F S384 .f32) = (m ((c : Thread nD τ).loc main_arg3) : S384.Idx → Elt F .f32) := by
  obtain ⟨e0, -⟩ := idx_whole t
  funext y
  unfold iblk
  rw [View.read_apply]
  show V m c main_arg3 _ = m (c.tc.loc main_arg3) y
  unfold V
  congr 1
  funext a
  apply Fin.ext
  match a with
  | ⟨0, _⟩ => show win0_3.index t (0 : Fin 1) * 384 + 1 * (y 0).val = (y 0).val; rw [e0]; omega

/-- Window 4's block at every point is the whole of `main_arg4`. -/
theorem iblk_whole4 (c : Dev nD) (t : Fin cfg0.N) :
    (iblk m c 4 t : Vec F S384 .f32) = (m ((c : Thread nD τ).loc main_arg4) : S384.Idx → Elt F .f32) := by
  obtain ⟨-, e0, -⟩ := idx_whole t
  funext y
  unfold iblk
  rw [View.read_apply]
  show V m c main_arg4 _ = m (c.tc.loc main_arg4) y
  unfold V
  congr 1
  funext a
  apply Fin.ext
  match a with
  | ⟨0, _⟩ => show win0_4.index t (0 : Fin 1) * 384 + 1 * (y 0).val = (y 0).val; rw [e0]; omega

/-- Window 5's block at every point is the whole of `main_arg5`. -/
theorem iblk_whole5 (c : Dev nD) (t : Fin cfg0.N) :
    (iblk m c 5 t : Vec F S384x128 .f32) = (m ((c : Thread nD τ).loc main_arg5) : S384x128.Idx → Elt F .f32) := by
  obtain ⟨-, -, e0, e1, -⟩ := idx_whole t
  funext y
  unfold iblk
  rw [View.read_apply]
  show V m c main_arg5 _ = m (c.tc.loc main_arg5) y
  unfold V
  congr 1
  funext a
  apply Fin.ext
  match a with
  | ⟨0, _⟩ => show win0_5.index t (0 : Fin 2) * 384 + 1 * (y 0).val = (y 0).val; rw [e0]; omega
  | ⟨1, _⟩ => show win0_5.index t (1 : Fin 2) * 128 + 1 * (y 1).val = (y 1).val; rw [e1]; omega

/-- Window 6's block at every point is the whole of `main_arg6`. -/
theorem iblk_whole6 (c : Dev nD) (t : Fin cfg0.N) :
    (iblk m c 6 t : Vec F S128 .f32) = (m ((c : Thread nD τ).loc main_arg6) : S128.Idx → Elt F .f32) := by
  obtain ⟨-, -, -, -, e0, -⟩ := idx_whole t
  funext y
  unfold iblk
  rw [View.read_apply]
  show V m c main_arg6 _ = m (c.tc.loc main_arg6) y
  unfold V
  congr 1
  funext a
  apply Fin.ext
  match a with
  | ⟨0, _⟩ => show win0_6.index t (0 : Fin 1) * 128 + 1 * (y 0).val = (y 0).val; rw [e0]; omega

/-- Window 7's block at every point is the whole of `main_arg7`. -/
theorem iblk_whole7 (c : Dev nD) (t : Fin cfg0.N) :
    (iblk m c 7 t : Vec F S128 .f32) = (m ((c : Thread nD τ).loc main_arg7) : S128.Idx → Elt F .f32) := by
  obtain ⟨-, -, -, -, -, e0, -⟩ := idx_whole t
  funext y
  unfold iblk
  rw [View.read_apply]
  show V m c main_arg7 _ = m (c.tc.loc main_arg7) y
  unfold V
  congr 1
  funext a
  apply Fin.ext
  match a with
  | ⟨0, _⟩ => show win0_7.index t (0 : Fin 1) * 128 + 1 * (y 0).val = (y 0).val; rw [e0]; omega

/-- Window 8's block at every point is the whole of `main_arg8`. -/
theorem iblk_whole8 (c : Dev nD) (t : Fin cfg0.N) :
    (iblk m c 8 t : Vec F S128 .f32) = (m ((c : Thread nD τ).loc main_arg8) : S128.Idx → Elt F .f32) := by
  obtain ⟨-, -, -, -, -, -, e0, -⟩ := idx_whole t
  funext y
  unfold iblk
  rw [View.read_apply]
  show V m c main_arg8 _ = m (c.tc.loc main_arg8) y
  unfold V
  congr 1
  funext a
  apply Fin.ext
  match a with
  | ⟨0, _⟩ => show win0_8.index t (0 : Fin 1) * 128 + 1 * (y 0).val = (y 0).val; rw [e0]; omega

/-- Window 9's block at every point is the whole of `main_arg9`. -/
theorem iblk_whole9 (c : Dev nD) (t : Fin cfg0.N) :
    (iblk m c 9 t : Vec F S128x128 .f32) = (m ((c : Thread nD τ).loc main_arg9) : S128x128.Idx → Elt F .f32) := by
  obtain ⟨-, -, -, -, -, -, -, e0, e1, -⟩ := idx_whole t
  funext y
  unfold iblk
  rw [View.read_apply]
  show V m c main_arg9 _ = m (c.tc.loc main_arg9) y
  unfold V
  congr 1
  funext a
  apply Fin.ext
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- Window 10's block at every point is the whole of `main_arg10`. -/
theorem iblk_whole10 (c : Dev nD) (t : Fin cfg0.N) :
    (iblk m c 10 t : Vec F S128 .f32) = (m ((c : Thread nD τ).loc main_arg10) : S128.Idx → Elt F .f32) := by
  obtain ⟨-, -, -, -, -, -, -, -, -, e0⟩ := idx_whole t
  funext y
  unfold iblk
  rw [View.read_apply]
  show V m c main_arg10 _ = m (c.tc.loc main_arg10) y
  unfold V
  congr 1
  funext a
  apply Fin.ext
  match a with
  | ⟨0, _⟩ => show win0_10.index t (0 : Fin 1) * 128 + 1 * (y 0).val = (y 0).val; rw [e0]; omega

end Cert.KernelIdeal.RowBlocks

end
-- ==== Proof.EdgeSpec.lean ====
/-
  The function both programs compute, over the reals, one row of edges at a time.

  A row of the three inputs is three real vectors `s t e : ℕ → ℝ` of 128 channels each; their concatenation `cat s t e` has 384
  channels. Channels come in consecutive groups of 8; `gmean f c` and `gvar f c` are the mean and the (biased) variance of the
  group of channel `c` in the row `f`, and `gnrelu ε f w b c` is the group-normalized, scaled, shifted and rectified value
  `max ((f c - mean) / √(var + ε) · w c + b c) 0`. Two affine layers (`lin384`, `lin128`) follow the two normalizations, and the
  third input row is added back at the end: `out`.
  Also here: the small laws of the extended reals that carry a real formula through the exact float operations (a sum of reals
  is real; a quotient by 8 and a product with 1/8; `1/√v` and a quotient by `√v` for `v > 0`; the maximum with zero), and the
  two forms of the variance — the mean of the squared deviations, and the mean of the squares minus the square of the mean.
-/
import Idealize.ShloMosaic.PureOps.Ideal
import Idealize.ShloMosaic.Lib.ValueIdx

noncomputable section

open scoped BigOperators

namespace Cert.EdgeMlp

open Idealize.ShloMosaic

/-! ## The real function -/

/-- The mean of the group of 8 consecutive channels that contains channel `c`. -/
def gmean (f : ℕ → ℝ) (c : ℕ) : ℝ := (∑ k : Fin 8, f (8 * (c / 8) + k.val)) / 8

/-- The variance of that group: the mean of the squared deviations from the group's mean. -/
def gvar (f : ℕ → ℝ) (c : ℕ) : ℝ :=
  (∑ k : Fin 8, (f (8 * (c / 8) + k.val) - gmean f c) * (f (8 * (c / 8) + k.val) - gmean f c)) / 8

/-- Group normalization of the row `f` at channel `c`, scaled by `w`, shifted by `b`, rectified. -/
def gnrelu (ε : ℝ) (f w b : ℕ → ℝ) (c : ℕ) : ℝ :=
  max ((f c - gmean f c) / Real.sqrt (gvar f c + ε) * w c + b c) 0

/-- Three rows of 128 channels side by side. -/
def cat (s t e : ℕ → ℝ) (c : ℕ) : ℝ := if c < 128 then s c else if c < 256 then t (c - 128) else e (c - 256)

/-- An affine layer on 384 channels. -/
def lin384 (h : ℕ → ℝ) (W : ℕ → ℕ → ℝ) (b : ℕ → ℝ) (j : ℕ) : ℝ := (∑ c : Fin 384, h c.val * W c.val j) + b j

/-- An affine layer on 128 channels. -/
def lin128 (h : ℕ → ℝ) (W : ℕ → ℕ → ℝ) (b : ℕ → ℝ) (j : ℕ) : ℝ := (∑ c : Fin 128, h c.val * W c.val j) + b j

/-- The whole edge function on one row: normalize the concatenation, first layer, normalize, second layer, add the third input back. -/
def out (ε : ℝ) (s t e w1 b1 : ℕ → ℝ) (W1 : ℕ → ℕ → ℝ) (c1 w2 b2 : ℕ → ℝ) (W2 : ℕ → ℕ → ℝ) (c2 : ℕ → ℝ) (j : ℕ) : ℝ :=
  lin128 (gnrelu ε (lin384 (gnrelu ε (cat s t e) w1 b1) W1 c1) w2 b2) W2 c2 j + e j

/-! ## Arrays of extended reals read as real functions of natural indices -/

/-- A vector of `n` extended reals as a real function of the position (zero past the end). -/
def vecR {n : ℕ} (a : (⟨1, ![n]⟩ : Shape).Idx → EReal) (c : ℕ) : ℝ :=
  if h : c < n then (a (ValueIdx.ix1 ⟨c, h⟩)).toReal else 0

/-- A matrix of extended reals as a real function of row and column (zero outside). -/
def matR {m n : ℕ} (a : (⟨2, ![m, n]⟩ : Shape).Idx → EReal) (r c : ℕ) : ℝ :=
  if h : r < m ∧ c < n then (a (ValueIdx.ix2 ⟨r, h.1⟩ ⟨c, h.2⟩)).toReal else 0

theorem vecR_spec {n : ℕ} (a : (⟨1, ![n]⟩ : Shape).Idx → EReal) (ha : ∀ i, ∃ r : ℝ, a i = (r : EReal)) (c : Fin n) :
    a (ValueIdx.ix1 c) = ((vecR a c.val : ℝ) : EReal) := by
  obtain ⟨r, hr⟩ := ha (ValueIdx.ix1 c)
  unfold vecR
  rw [dif_pos c.isLt]
  show a (ValueIdx.ix1 c) = _
  rw [hr, EReal.toReal_coe]

theorem matR_spec {m n : ℕ} (a : (⟨2, ![m, n]⟩ : Shape).Idx → EReal) (ha : ∀ i, ∃ r : ℝ, a i = (r : EReal)) (p : Fin m) (q : Fin n) :
    a (ValueIdx.ix2 p q) = ((matR a p.val q.val : ℝ) : EReal) := by
  obtain ⟨r, hr⟩ := ha (ValueIdx.ix2 p q)
  unfold matR
  rw [dif_pos ⟨p.isLt, q.isLt⟩]
  show a (ValueIdx.ix2 p q) = _
  rw [hr, EReal.toReal_coe]

/-! ## The float words the two programs spell -/

theorem word_zero : Ideal.ofBits .f32 0x00000000#32 = ((0 : ℝ) : EReal) := by
  simp [Ideal.ofBits, Ideal.ieee]

theorem word_eight : Ideal.ofBits .f32 0x41000000#32 = ((8 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

/-- The stabilizer added to a variance: the real the word `0x3727C5AC` denotes, a positive number (about 1e-5). -/
def eps : ℝ := (Ideal.ofBits .f32 0x3727C5AC#32).toReal

theorem word_eps : Ideal.ofBits .f32 0x3727C5AC#32 = ((eps : ℝ) : EReal) ∧ 0 < eps := by
  have h : ∃ r : ℝ, Ideal.ofBits .f32 0x3727C5AC#32 = (r : EReal) ∧ 0 < r := by
    refine ⟨_, by simp [Ideal.ofBits, Ideal.ieee, -EReal.coe_mul]; rfl, ?_⟩
    norm_num
  obtain ⟨r, hr, hpos⟩ := h
  unfold eps
  rw [hr, EReal.toReal_coe]
  exact ⟨rfl, hpos⟩

end Cert.EdgeMlp

end
-- ==== Proof.EdgeLaws.lean ====
/-
  The laws that join the two programs, apart from any program.

  Over the reals: the variance of eight numbers is the mean of their squares minus the square of their mean, and it is not
  negative. Over the extended reals: real numbers stay real under the exact operations the programs use (finite sums, the
  quotient by 8 and the product with 1/8, the reciprocal square root and the quotient by a square root of a positive number,
  the maximum with zero), and a sum against a 0/1 indicator of "same group of eight" picks out the group: summing a row against
  the indicator column of group `g` is the sum over the group's eight members, and summing the per-group values against the
  indicator row of channel `c` is the value of `c`'s group.
-/
import proofs.«164875_j15401752724192_2_alg».proof.Proof.EdgeSpec

noncomputable section

open scoped BigOperators

namespace Cert.EdgeMlp

open Idealize.ShloMosaic

/-! ## Reals inside the extended reals -/

/-- A finite sum of reals, formed in the extended reals, is the real sum. -/
theorem coe_sum {ι : Type*} [Fintype ι] (f : ι → ℝ) : ∑ k : ι, ((f k : ℝ) : EReal) = ((∑ k : ι, f k : ℝ) : EReal) := by
  classical
  refine Finset.induction_on (Finset.univ : Finset ι) (by simp) ?_
  intro a s ha ih
  rw [Finset.sum_insert ha, Finset.sum_insert ha, ih, EReal.coe_add]

theorem coe_div_eight (a : ℝ) : Ideal.div (a : EReal) ((8 : ℝ) : EReal) = ((a / 8 : ℝ) : EReal) := by
  rw [Ideal.div_coe (by norm_num : (8 : ℝ) ≠ 0), ← EReal.coe_mul]
  congr 1
  ring

theorem coe_rsqrt {v : ℝ} (h : 0 < v) : Ideal.rsqrt (v : EReal) = (((Real.sqrt v)⁻¹ : ℝ) : EReal) := by
  rw [Ideal.rsqrt_coe, if_neg (not_lt.mpr h.le), if_neg h.ne']

theorem coe_div_sqrt {v : ℝ} (h : 0 < v) (a : ℝ) :
    Ideal.div (a : EReal) (Ideal.sqrt (v : EReal)) = ((a / Real.sqrt v : ℝ) : EReal) := by
  rw [Ideal.sqrt_coe, if_neg (not_lt.mpr h.le), Ideal.div_coe (Real.sqrt_pos.mpr h).ne', ← EReal.coe_mul]
  congr 1
  rw [one_div, div_eq_mul_inv]

theorem coe_max_zero (a : ℝ) : max (a : EReal) ((0 : ℝ) : EReal) = ((max a 0 : ℝ) : EReal) :=
  (EReal.coe_strictMono.monotone.map_max).symm

/-! ## The variance of eight numbers, two ways -/

theorem var_two_forms (f : Fin 8 → ℝ) :
    (∑ k : Fin 8, f k * f k) * (1 / 8) - ((∑ k : Fin 8, f k) * (1 / 8)) * ((∑ k : Fin 8, f k) * (1 / 8))
      = (∑ k : Fin 8, (f k - (∑ k : Fin 8, f k) / 8) * (f k - (∑ k : Fin 8, f k) / 8)) / 8 := by
  simp only [Fin.sum_univ_eight]
  ring

theorem var_nonneg (f : Fin 8 → ℝ) (μ : ℝ) : 0 ≤ (∑ k : Fin 8, (f k - μ) * (f k - μ)) / 8 :=
  div_nonneg (Finset.sum_nonneg fun k _ => mul_self_nonneg _) (by norm_num)

theorem gvar_nonneg (f : ℕ → ℝ) (c : ℕ) : 0 ≤ gvar f c := var_nonneg _ _

theorem gvar_eps_pos (f : ℕ → ℝ) (c : ℕ) : 0 < gvar f c + eps := add_pos_of_nonneg_of_pos (gvar_nonneg f c) word_eps.2

/-! ## Sums against the indicator of "same group of eight" -/

/-- Summing 128 channels against the indicator column of group `g` leaves the sum over the group's eight members. -/
theorem sum_indicator_group (X : ℕ → EReal) (g : Fin 16) :
    ∑ c : Fin 128, X c.val * (if c.val / 8 = g.val then (1 : EReal) else 0) = ∑ k : Fin 8, X (8 * g.val + k.val) := by
  have e : ∑ c : Fin 128, X c.val * (if c.val / 8 = g.val then (1 : EReal) else 0)
      = ∑ p : Fin 16 × Fin 8, X (p.2.val + 8 * p.1.val) * (if (p.2.val + 8 * p.1.val) / 8 = g.val then (1 : EReal) else 0) := by
    rw [← Equiv.sum_comp (finProdFinEquiv : Fin 16 × Fin 8 ≃ Fin (16 * 8))]
    rfl
  rw [e, Fintype.sum_prod_type]
  have h1 : ∀ (a : Fin 16) (b : Fin 8), (b.val + 8 * a.val) / 8 = a.val := fun a b => by have := b.isLt; omega
  simp only [h1]
  rw [Finset.sum_eq_single g]
  · simp only [if_true, mul_one]
    exact Finset.sum_congr rfl fun k _ => by rw [add_comm]
  · intro a _ hne
    have : ¬ a.val = g.val := fun h => hne (Fin.ext h)
    simp only [if_neg this, mul_zero, Finset.sum_const_zero]
  · intro h; exact absurd (Finset.mem_univ g) h

/-- Summing the 16 per-group values against the indicator row of channel `c` leaves the value of `c`'s group. -/
theorem sum_indicator_pick (M : ℕ → EReal) (c : Fin 128) :
    ∑ g : Fin 16, M g.val * (if c.val / 8 = g.val then (1 : EReal) else 0) = M (c.val / 8) := by
  have hc : c.val / 8 < 16 := by have := c.isLt; omega
  rw [Finset.sum_eq_single (⟨c.val / 8, hc⟩ : Fin 16)]
  · simp only [if_true, mul_one]
  · intro a _ hne
    have : ¬ c.val / 8 = a.val := fun h => hne (Fin.ext h.symm)
    simp only [if_neg this, mul_zero]
  · intro h; exact absurd (Finset.mem_univ _) h

end Cert.EdgeMlp

end
-- ==== Proof.KernelOps.lean ====
/-
  The kernel body's building blocks read at one entry.

  The body works on a block of 4096 rows: products with the two 0/1 matrices that say "channel `c` belongs to group `g`"
  (128 × 16 and its transpose), products with 128 × 128 slices of the weights, and entrywise arithmetic. Here each kind of
  product is read at row `p` and column `q` as the sum over the contracted axis, the two 0/1 matrices are evaluated
  (built from the coordinates by a floor division by 8, a comparison and a conversion to float), and the slices and the
  row-broadcasts of the parameter vectors are read at an entry.
-/
import proofs.«164875_j15401752724192_2_alg».proof.Proof.Gen.KernelIdeal.Skeleton
import proofs.«164875_j15401752724192_2_alg».proof.Proof.EdgeLaws
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Row

open Cert.KernelIdeal Cert.KernelIdeal.Gen Idealize.ShloMosaic Idealize.ShloMosaic.ValueIdx Cert.EdgeMlp

/-! ## The three kinds of product -/

theorem toGroups_l0 (i : S4096x16.Idx) (q : dot_S4096x128_S128x16_S4096x16_1_0_0_1_n_n.contr.Idx) : (dot_S4096x128_S128x16_S4096x16_1_0_0_1_n_n.lhsIdx i q 0).val = (i 0).val := by
  unfold DotDims.lhsIdx
  rw [dif_neg (show ¬(0 : Fin S4096x128.rank) ∈ dot_S4096x128_S128x16_S4096x16_1_0_0_1_n_n.lhsBatch by decide), dif_pos (show (0 : Fin S4096x128.rank) ∈ dot_S4096x128_S128x16_S4096x16_1_0_0_1_n_n.lhsNonContracting by decide)]
  rfl
theorem toGroups_l1 (i : S4096x16.Idx) (q : dot_S4096x128_S128x16_S4096x16_1_0_0_1_n_n.contr.Idx) : (dot_S4096x128_S128x16_S4096x16_1_0_0_1_n_n.lhsIdx i q 1).val = (q ⟨0, by decide⟩).val :=
  dot_S4096x128_S128x16_S4096x16_1_0_0_1_n_n.lhsIdx_val_of_single rfl i q
theorem toGroups_r0 (i : S4096x16.Idx) (q : dot_S4096x128_S128x16_S4096x16_1_0_0_1_n_n.contr.Idx) : (dot_S4096x128_S128x16_S4096x16_1_0_0_1_n_n.rhsIdx i q 0).val = (q ⟨0, by decide⟩).val :=
  dot_S4096x128_S128x16_S4096x16_1_0_0_1_n_n.rhsIdx_val_of_single rfl i q
theorem toGroups_r1 (i : S4096x16.Idx) (q : dot_S4096x128_S128x16_S4096x16_1_0_0_1_n_n.contr.Idx) : (dot_S4096x128_S128x16_S4096x16_1_0_0_1_n_n.rhsIdx i q 1).val = (i 1).val := by
  unfold DotDims.rhsIdx
  rw [dif_neg (show ¬(1 : Fin S128x16.rank) ∈ dot_S4096x128_S128x16_S4096x16_1_0_0_1_n_n.rhsBatch by decide), dif_pos (show (1 : Fin S128x16.rank) ∈ dot_S4096x128_S128x16_S4096x16_1_0_0_1_n_n.rhsNonContracting by decide)]
  rfl
/-- A product into the zero accumulator, read at row `p` and column `q`: the sum over the contracted axis. -/
theorem toGroups_apply (l : FVec Ideal S4096x128 .f32) (r : FVec Ideal S128x16 .f32) (p : Fin 4096) (q : Fin 16) :
    matmul dot_S4096x128_S128x16_S4096x16_1_0_0_1_n_n none l r (constant S4096x16 .f32 0x00000000#32) (ix2 p q) = ∑ k : Fin 128, l (ix2 p k) * r (ix2 k q) := by
  simp only [matmul]
  rw [Ideal.matmul_constant_zero_apply, ← Equiv.sum_comp (contrEquiv1 dot_S4096x128_S128x16_S4096x16_1_0_0_1_n_n 128 rfl rfl).symm]
  refine Finset.sum_congr rfl fun k _ => ?_
  have hk := contrEquiv1_symm_val dot_S4096x128_S128x16_S4096x16_1_0_0_1_n_n 128 rfl rfl k
  have el : dot_S4096x128_S128x16_S4096x16_1_0_0_1_n_n.lhsIdx (ix2 p q) ((contrEquiv1 dot_S4096x128_S128x16_S4096x16_1_0_0_1_n_n 128 rfl rfl).symm k) = ix2 p k := funext fun a => Fin.ext (by
    match a with
    | ⟨0, _⟩ => exact toGroups_l0 _ _
    | ⟨1, _⟩ => exact (toGroups_l1 _ _).trans hk)
  have er : dot_S4096x128_S128x16_S4096x16_1_0_0_1_n_n.rhsIdx (ix2 p q) ((contrEquiv1 dot_S4096x128_S128x16_S4096x16_1_0_0_1_n_n 128 rfl rfl).symm k) = ix2 k q := funext fun a => Fin.ext (by
    match a with
    | ⟨0, _⟩ => exact (toGroups_r0 _ _).trans hk
    | ⟨1, _⟩ => exact toGroups_r1 _ _)
  rw [el, er]

theorem fromGroups_l0 (i : S4096x128.Idx) (q : dot_S4096x16_S16x128_S4096x128_1_0_0_1_n_n.contr.Idx) : (dot_S4096x16_S16x128_S4096x128_1_0_0_1_n_n.lhsIdx i q 0).val = (i 0).val := by
  unfold DotDims.lhsIdx
  rw [dif_neg (show ¬(0 : Fin S4096x16.rank) ∈ dot_S4096x16_S16x128_S4096x128_1_0_0_1_n_n.lhsBatch by decide), dif_pos (show (0 : Fin S4096x16.rank) ∈ dot_S4096x16_S16x128_S4096x128_1_0_0_1_n_n.lhsNonContracting by decide)]
  rfl
theorem fromGroups_l1 (i : S4096x128.Idx) (q : dot_S4096x16_S16x128_S4096x128_1_0_0_1_n_n.contr.Idx) : (dot_S4096x16_S16x128_S4096x128_1_0_0_1_n_n.lhsIdx i q 1).val = (q ⟨0, by decide⟩).val :=
  dot_S4096x16_S16x128_S4096x128_1_0_0_1_n_n.lhsIdx_val_of_single rfl i q
theorem fromGroups_r0 (i : S4096x128.Idx) (q : dot_S4096x16_S16x128_S4096x128_1_0_0_1_n_n.contr.Idx) : (dot_S4096x16_S16x128_S4096x128_1_0_0_1_n_n.rhsIdx i q 0).val = (q ⟨0, by decide⟩).val :=
  dot_S4096x16_S16x128_S4096x128_1_0_0_1_n_n.rhsIdx_val_of_single rfl i q
theorem fromGroups_r1 (i : S4096x128.Idx) (q : dot_S4096x16_S16x128_S4096x128_1_0_0_1_n_n.contr.Idx) : (dot_S4096x16_S16x128_S4096x128_1_0_0_1_n_n.rhsIdx i q 1).val = (i 1).val := by
  unfold DotDims.rhsIdx
  rw [dif_neg (show ¬(1 : Fin S16x128.rank) ∈ dot_S4096x16_S16x128_S4096x128_1_0_0_1_n_n.rhsBatch by decide), dif_pos (show (1 : Fin S16x128.rank) ∈ dot_S4096x16_S16x128_S4096x128_1_0_0_1_n_n.rhsNonContracting by decide)]
  rfl
/-- A product into the zero accumulator, read at row `p` and column `q`: the sum over the contracted axis. -/
theorem fromGroups_apply (l : FVec Ideal S4096x16 .f32) (r : FVec Ideal S16x128 .f32) (p : Fin 4096) (q : Fin 128) :
    matmul dot_S4096x16_S16x128_S4096x128_1_0_0_1_n_n none l r (constant S4096x128 .f32 0x00000000#32) (ix2 p q) = ∑ k : Fin 16, l (ix2 p k) * r (ix2 k q) := by
  simp only [matmul]
  rw [Ideal.matmul_constant_zero_apply, ← Equiv.sum_comp (contrEquiv1 dot_S4096x16_S16x128_S4096x128_1_0_0_1_n_n 16 rfl rfl).symm]
  refine Finset.sum_congr rfl fun k _ => ?_
  have hk := contrEquiv1_symm_val dot_S4096x16_S16x128_S4096x128_1_0_0_1_n_n 16 rfl rfl k
  have el : dot_S4096x16_S16x128_S4096x128_1_0_0_1_n_n.lhsIdx (ix2 p q) ((contrEquiv1 dot_S4096x16_S16x128_S4096x128_1_0_0_1_n_n 16 rfl rfl).symm k) = ix2 p k := funext fun a => Fin.ext (by
    match a with
    | ⟨0, _⟩ => exact fromGroups_l0 _ _
    | ⟨1, _⟩ => exact (fromGroups_l1 _ _).trans hk)
  have er : dot_S4096x16_S16x128_S4096x128_1_0_0_1_n_n.rhsIdx (ix2 p q) ((contrEquiv1 dot_S4096x16_S16x128_S4096x128_1_0_0_1_n_n 16 rfl rfl).symm k) = ix2 k q := funext fun a => Fin.ext (by
    match a with
    | ⟨0, _⟩ => exact (fromGroups_r0 _ _).trans hk
    | ⟨1, _⟩ => exact fromGroups_r1 _ _)
  rw [el, er]

theorem layer_l0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem layer_l1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem layer_r0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem layer_r1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl
/-- A product into the zero accumulator, read at row `p` and column `q`: the sum over the contracted axis. -/
theorem layer_apply (l : FVec Ideal S4096x128 .f32) (r : FVec Ideal S128x128 .f32) (p : Fin 4096) (q : Fin 128) :
    matmul dot_S4096x128_S128x128_S4096x128_1_0_0_1_n_n none l r (constant S4096x128 .f32 0x00000000#32) (ix2 p q) = ∑ k : Fin 128, l (ix2 p k) * r (ix2 k q) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact layer_l0 _ _
    | ⟨1, _⟩ => exact (layer_l1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (layer_r0 _ _).trans hk
    | ⟨1, _⟩ => exact layer_r1 _ _)
  rw [el, er]

/-! ## The two 0/1 matrices -/

end Cert.KernelIdeal.Row

namespace Cert.KernelIdeal.RowWords

open Idealize.ShloMosaic

/-- The floor of `x / 8` as the body computes it on a 32-bit word: the quotient rounded toward zero, lowered by one when the
    signs of dividend and divisor differ and the remainder is not zero. -/
def floorDiv8 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32)
    (IntOp.divsi .vector x 8#32)

/-- "The group of channel `c` is `g`", as the 32-bit word the body converts to a float: 1 or 0. -/
def sameGroup (c g : BitVec 32) : BitVec 32 := (IntOp.cmpi .eq (floorDiv8 c) g).setWidth 32

/-- Over the 128 channels and 16 groups, that word is 1 exactly when `c / 8 = g` (checked case by case). -/
theorem sameGroup_eq : ∀ (c : Fin 128) (g : Fin 16),
    sameGroup (BitVec.ofNat 32 c.val) (BitVec.ofNat 32 g.val) = if c.val / 8 = g.val then 1#32 else 0#32 := by
  decide +kernel

/-- Converted to a float at the exact instance, the word is the extended real 1 or 0. -/
theorem sameGroup_float (c : Fin 128) (g : Fin 16) :
    FloatOps.sitofp (F := Ideal) .f32 (sameGroup (BitVec.ofNat 32 c.val) (BitVec.ofNat 32 g.val))
      = if c.val / 8 = g.val then (1 : EReal) else 0 := by
  rw [sameGroup_eq]
  by_cases h : c.val / 8 = g.val
  · rw [if_pos h, if_pos h]
    show (((1#32 : BitVec 32).toInt : ℝ) : EReal) = 1
    have : (1#32 : BitVec 32).toInt = 1 := by decide
    rw [this]; simp
  · rw [if_neg h, if_neg h]
    show (((0#32 : BitVec 32).toInt : ℝ) : EReal) = 0
    have : (0#32 : BitVec 32).toInt = 0 := by decide
    rw [this]; simp

end Cert.KernelIdeal.RowWords

namespace Cert.KernelIdeal.Row

open Cert.KernelIdeal Cert.KernelIdeal.Gen Cert.KernelIdeal.RowWords Idealize.ShloMosaic Idealize.ShloMosaic.ValueIdx Cert.EdgeMlp

/-- The channels-to-groups matrix (128 × 16) as the body builds it. -/
abbrev toGroupsMat : FVec Ideal S128x16 .f32 :=
  k0_pay5 (F := Ideal) (iota .tc S128x16 32 [1] iota_S128x16_d1_w32) k0_pay2 k0_pay3 k0_pay4

/-- Its entry at channel `c`, group `g`: 1 when `c` lies in group `g`, else 0. -/
theorem toGroupsMat_entry (c : Fin 128) (g : Fin 16) :
    toGroupsMat (ix2 c g) = if c.val / 8 = g.val then (1 : EReal) else 0 := by
  have h : toGroupsMat (ix2 c g) = FloatOps.sitofp (F := Ideal) .f32
      (sameGroup (iota .tc S128x16 32 [0] iota_S128x16_d0_w32 (ix2 c g)) (iota .tc S128x16 32 [1] iota_S128x16_d1_w32 (ix2 c g))) := rfl
  rw [h, Idealize.ShloMosaic.iota_single_apply, Idealize.ShloMosaic.iota_single_apply]
  exact sameGroup_float c g

/-- The groups-to-channels matrix (16 × 128): the transpose, built the same way. Its entry at group `g`, channel `c`. -/
theorem fromGroupsMat_entry (g : Fin 16) (c : Fin 128) :
    k0_pay6 (F := Ideal) (ix2 g c) = if c.val / 8 = g.val then (1 : EReal) else 0 := by
  have h : k0_pay6 (F := Ideal) (ix2 g c) = FloatOps.sitofp (F := Ideal) .f32
      (sameGroup (iota .tc S16x128 32 [1] iota_S16x128_d1_w32 (ix2 g c)) (iota .tc S16x128 32 [0] iota_S16x128_d0_w32 (ix2 g c))) := rfl
  rw [h, Idealize.ShloMosaic.iota_single_apply, Idealize.ShloMosaic.iota_single_apply]
  exact sameGroup_float c g

/-! ## Parameter vectors: a slice of 128 entries, and a vector laid along every row -/

/-- A vector of 128 parameters broadcast over the rows of a block reads, at any row, its entry at the column. -/
theorem rowBroadcast_apply (w : FVec Ideal S128 .f32) (p : Fin 4096) (c : Fin 128) :
    broadcastTo S4096x128 (shapeCast S1x128 w shapeCasts_S128_S1x128) broadcasts_S1x128_S4096x128 (ix2 p c) = w (ix1 c) := by
  rw [broadcastTo_1b_ab_apply, shapeCast_a_1a_apply]

/-- Entries `o … o+127` of a vector of 384 parameters. -/
theorem slice128_apply (o : Nat) (v : FVec Ideal S384 .f32) (h : S384.Slices ![o] S128) (c : Fin 128) (k : Fin 384)
    (hk : k.val = o + c.val) : extractStridedSlice S128 ![o] v h (ix1 c) = v (ix1 k) :=
  extractStridedSlice_apply _ _ _ _ _ (fun ax => by
    match ax with
    | ⟨0, _⟩ => exact hk)

end Cert.KernelIdeal.Row

end
-- ==== Proof.KernelNorm.lean ====
/-
  One group normalization of the kernel body, read at one entry.

  The body normalizes a block `x` of 4096 rows × 128 channels through the two 0/1 matrices: the per-group means are
  `(x · G) / 8`, the per-group means of squares `((x ∘ x) · G) / 8`, the variance is their difference "mean of squares minus
  square of the mean", both are carried back to the channels by `· Gᵀ`, and the result is `(x − mean) · (var + ε)^(−1/2)`.
  On a row of real numbers `f` this is, entry by entry, the real `(f c − gmean f c) / √(gvar f c + ε)`: the sums against the
  indicators pick out the group of eight, the two forms of the variance agree over the reals, and the variance is not
  negative, so the reciprocal square root is taken of a positive number. Scaling by `w`, shifting by `b` and rectifying
  then give `gnrelu`.
-/
import proofs.«164875_j15401752724192_2_alg».proof.Proof.KernelOps

set_option maxRecDepth 16384

noncomputable section

open scoped BigOperators

namespace Cert.KernelIdeal.Row

open Cert.KernelIdeal Cert.KernelIdeal.Gen Idealize.ShloMosaic Idealize.ShloMosaic.ValueIdx Cert.EdgeMlp

/-- The per-group means of a block: the product with the channels-to-groups matrix, times 1/8. -/
def groupMeans (x : FVec Ideal S4096x128 .f32) (G : FVec Ideal S128x16 .f32) : FVec Ideal S4096x16 .f32 :=
  mulf (matmul dot_S4096x128_S128x16_S4096x16_1_0_0_1_n_n none x G (constant S4096x16 .f32 0x00000000#32))
    (broadcast S4096x16 (Scalar.ofBits (F := Ideal) .f32 0x3E000000#32))

/-- The normalized block, before scale and shift. -/
def normalized (x : FVec Ideal S4096x128 .f32) (G : FVec Ideal S128x16 .f32) (Gt : FVec Ideal S16x128 .f32) : FVec Ideal S4096x128 .f32 :=
  mulf (subf x (matmul dot_S4096x16_S16x128_S4096x128_1_0_0_1_n_n none (groupMeans x G) Gt (constant S4096x128 .f32 0x00000000#32)))
    (rsqrt (addf
      (matmul dot_S4096x16_S16x128_S4096x128_1_0_0_1_n_n none
        (subf (groupMeans (mulf x x) G) (mulf (groupMeans x G) (groupMeans x G))) Gt (constant S4096x128 .f32 0x00000000#32))
      (broadcast S4096x128 (Scalar.ofBits (F := Ideal) .f32 0x3727C5AC#32))))

/-- Scale by `w`, shift by `b` (each laid along every row), rectify. -/
def scaleShiftRelu (xn : FVec Ideal S4096x128 .f32) (w b : FVec Ideal S128 .f32) : FVec Ideal S4096x128 .f32 :=
  maximumf
    (addf (mulf xn (broadcastTo S4096x128 (shapeCast S1x128 w shapeCasts_S128_S1x128) broadcasts_S1x128_S4096x128))
      (broadcastTo S4096x128 (shapeCast S1x128 b shapeCasts_S128_S1x128) broadcasts_S1x128_S4096x128))
    (broadcast S4096x128 (Scalar.ofBits (F := Ideal) .f32 0x00000000#32))

/-- The per-group mean of a row of reals, at group `g`: the sum of the group's eight members times 1/8. -/
theorem groupMeans_entry (x : FVec Ideal S4096x128 .f32) (G : FVec Ideal S128x16 .f32) (p : Fin 4096) (f : ℕ → ℝ)
    (hx : ∀ c : Fin 128, x (ix2 p c) = ((f c.val : ℝ) : EReal))
    (hG : ∀ (c : Fin 128) (g : Fin 16), G (ix2 c g) = if c.val / 8 = g.val then (1 : EReal) else 0) (g : Fin 16) :
    groupMeans x G (ix2 p g) = (((∑ k : Fin 8, f (8 * g.val + k.val)) * (1 / 8) : ℝ) : EReal) := by
  have h1 : (∑ k : Fin 128, (x (ix2 p k) : EReal) * (G (ix2 k g) : EReal)) = ((∑ k : Fin 8, f (8 * g.val + k.val) : ℝ) : EReal) := by
    have h2 : (∑ k : Fin 128, (x (ix2 p k) : EReal) * (G (ix2 k g) : EReal))
        = ∑ k : Fin 128, (fun n => ((f n : ℝ) : EReal)) k.val * (if k.val / 8 = g.val then (1 : EReal) else 0) :=
      Finset.sum_congr rfl fun k _ => by rw [hx k, hG k g]
    exact h2.trans ((sum_indicator_group (fun n => ((f n : ℝ) : EReal)) g).trans (coe_sum fun k : Fin 8 => f (8 * g.val + k.val)))
  unfold groupMeans
  rw [mulf_apply, toGroups_apply, broadcast_apply]
  show (∑ k : Fin 128, (x (ix2 p k) : EReal) * (G (ix2 k g) : EReal)) * Ideal.ofBits .f32 0x3E000000#32 = _
  rw [word_eighth, h1, ← EReal.coe_mul]

/-- A per-group quantity carried back to the channels: at channel `c`, the value of `c`'s group. -/
theorem fromGroups_entry (y : FVec Ideal S4096x16 .f32) (Gt : FVec Ideal S16x128 .f32) (p : Fin 4096) (m : ℕ → ℝ)
    (hy : ∀ g : Fin 16, y (ix2 p g) = ((m g.val : ℝ) : EReal))
    (hGt : ∀ (g : Fin 16) (c : Fin 128), Gt (ix2 g c) = if c.val / 8 = g.val then (1 : EReal) else 0) (c : Fin 128) :
    matmul dot_S4096x16_S16x128_S4096x128_1_0_0_1_n_n none y Gt (constant S4096x128 .f32 0x00000000#32) (ix2 p c)
      = ((m (c.val / 8) : ℝ) : EReal) := by
  have h1 : (∑ g : Fin 16, (y (ix2 p g) : EReal) * (Gt (ix2 g c) : EReal)) = ((m (c.val / 8) : ℝ) : EReal) := by
    have h2 : (∑ g : Fin 16, (y (ix2 p g) : EReal) * (Gt (ix2 g c) : EReal))
        = ∑ g : Fin 16, (fun n => ((m n : ℝ) : EReal)) g.val * (if c.val / 8 = g.val then (1 : EReal) else 0) :=
      Finset.sum_congr rfl fun g _ => by rw [hy g, hGt g c]
    exact h2.trans (sum_indicator_pick (fun n => ((m n : ℝ) : EReal)) c)
  rw [fromGroups_apply]
  exact h1

/-- The normalized block at row `p`, channel `c`, on a row of reals `f`. -/
theorem normalized_entry (x : FVec Ideal S4096x128 .f32) (G : FVec Ideal S128x16 .f32) (Gt : FVec Ideal S16x128 .f32)
    (p : Fin 4096) (f : ℕ → ℝ) (hx : ∀ c : Fin 128, x (ix2 p c) = ((f c.val : ℝ) : EReal))
    (hG : ∀ (c : Fin 128) (g : Fin 16), G (ix2 c g) = if c.val / 8 = g.val then (1 : EReal) else 0)
    (hGt : ∀ (g : Fin 16) (c : Fin 128), Gt (ix2 g c) = if c.val / 8 = g.val then (1 : EReal) else 0) (c : Fin 128) :
    normalized x G Gt (ix2 p c) = (((f c.val - gmean f c.val) / Real.sqrt (gvar f c.val + eps) : ℝ) : EReal) := by
  have hxx : ∀ c : Fin 128, mulf x x (ix2 p c) = (((fun n => f n * f n) c.val : ℝ) : EReal) := fun c => by
    rw [mulf_apply, hx c, ← EReal.coe_mul]
  have hm := groupMeans_entry x G p f hx hG
  have hq := groupMeans_entry (mulf x x) G p (fun n => f n * f n) hxx hG
  have hv : ∀ g : Fin 16, subf (groupMeans (mulf x x) G) (mulf (groupMeans x G) (groupMeans x G)) (ix2 p g)
      = (((fun n => (∑ k : Fin 8, f (8 * n + k.val) * f (8 * n + k.val)) * (1 / 8)
            - ((∑ k : Fin 8, f (8 * n + k.val)) * (1 / 8)) * ((∑ k : Fin 8, f (8 * n + k.val)) * (1 / 8))) g.val : ℝ) : EReal) := fun g => by
    rw [subf_apply, mulf_apply, hm g, hq g, ← EReal.coe_mul, ← EReal.coe_sub]
  have e1 := fromGroups_entry (groupMeans x G) Gt p (fun n => (∑ k : Fin 8, f (8 * n + k.val)) * (1 / 8)) hm hGt c
  have e2 := fromGroups_entry (subf (groupMeans (mulf x x) G) (mulf (groupMeans x G) (groupMeans x G))) Gt p
    (fun n => (∑ k : Fin 8, f (8 * n + k.val) * f (8 * n + k.val)) * (1 / 8)
            - ((∑ k : Fin 8, f (8 * n + k.val)) * (1 / 8)) * ((∑ k : Fin 8, f (8 * n + k.val)) * (1 / 8))) hv hGt c
  show ((x (ix2 p c) : EReal) - matmul dot_S4096x16_S16x128_S4096x128_1_0_0_1_n_n none (groupMeans x G) Gt (constant S4096x128 .f32 0x00000000#32) (ix2 p c))
      * Ideal.rsqrt (matmul dot_S4096x16_S16x128_S4096x128_1_0_0_1_n_n none
          (subf (groupMeans (mulf x x) G) (mulf (groupMeans x G) (groupMeans x G))) Gt (constant S4096x128 .f32 0x00000000#32) (ix2 p c)
        + Ideal.ofBits .f32 0x3727C5AC#32) = _
  rw [hx c, e1, e2, word_eps.1, ← EReal.coe_add]
  have hmean : (∑ k : Fin 8, f (8 * (c.val / 8) + k.val)) * (1 / 8) = gmean f c.val := by
    unfold gmean; ring
  have hvar : (∑ k : Fin 8, f (8 * (c.val / 8) + k.val) * f (8 * (c.val / 8) + k.val)) * (1 / 8)
      - ((∑ k : Fin 8, f (8 * (c.val / 8) + k.val)) * (1 / 8)) * ((∑ k : Fin 8, f (8 * (c.val / 8) + k.val)) * (1 / 8))
      = gvar f c.val := by
    rw [var_two_forms (fun k => f (8 * (c.val / 8) + k.val))]
    rfl
  rw [hvar, hmean]
  rw [coe_rsqrt (gvar_eps_pos f c.val), ← EReal.coe_sub, ← EReal.coe_mul, div_eq_mul_inv]

/-- Scale, shift, rectify at an entry, on reals. -/
theorem scaleShiftRelu_entry (xn : FVec Ideal S4096x128 .f32) (w b : FVec Ideal S128 .f32) (p : Fin 4096) (c : Fin 128) (a wr br : ℝ)
    (ha : xn (ix2 p c) = ((a : ℝ) : EReal)) (hw : w (ix1 c) = ((wr : ℝ) : EReal)) (hb : b (ix1 c) = ((br : ℝ) : EReal)) :
    scaleShiftRelu xn w b (ix2 p c) = ((max (a * wr + br) 0 : ℝ) : EReal) := by
  unfold scaleShiftRelu
  rw [maximumf_apply, addf_apply, mulf_apply, rowBroadcast_apply, rowBroadcast_apply, broadcast_apply, ha, hw, hb]
  show max _ (Ideal.ofBits .f32 0x00000000#32) = _
  rw [word_zero, ← EReal.coe_mul, ← EReal.coe_add, coe_max_zero]

end Cert.KernelIdeal.Row

end
-- ==== Proof.EdgeSplit.lean ====
/-
  The concatenated row, segment by segment.

  The reference normalizes the 384 channels of `cat s t e` at once and multiplies by the whole 384 × 128 weight; the kernel
  normalizes `s`, `t` and `e` separately and adds three 128 × 128 products. Groups have 8 channels and 8 divides 128, so no
  group straddles two segments: the group statistics of the concatenation at channel `128·k + c` are those of the `k`-th
  segment at `c`, and a sum over 384 channels is the sum of the three sums over 128.
-/
import proofs.«164875_j15401752724192_2_alg».proof.Proof.EdgeLaws

noncomputable section

open scoped BigOperators

namespace Cert.EdgeMlp

/-- A sum over 384 channels, segment by segment. -/
theorem sum_three_segments (g : ℕ → ℝ) :
    ∑ c : Fin 384, g c.val = (∑ c : Fin 128, g c.val + ∑ c : Fin 128, g (128 + c.val)) + ∑ c : Fin 128, g (256 + c.val) := by
  have a := Fin.sum_univ_eq_sum_range g 384
  have b := Fin.sum_univ_eq_sum_range g 128
  have c := Fin.sum_univ_eq_sum_range (fun n => g (128 + n)) 128
  have d := Fin.sum_univ_eq_sum_range (fun n => g (256 + n)) 128
  rw [a, b, c, d, show (384 : ℕ) = 128 + 128 + 128 from rfl, Finset.sum_range_add, Finset.sum_range_add]

/-- The normalized, scaled, shifted, rectified value with the scale and the shift given as numbers. -/
def gnreluAt (ε : ℝ) (f : ℕ → ℝ) (c : ℕ) (wv bv : ℝ) : ℝ :=
  max ((f c - gmean f c) / Real.sqrt (gvar f c + ε) * wv + bv) 0

theorem gnrelu_eq (ε : ℝ) (f w b : ℕ → ℝ) (c : ℕ) : gnrelu ε f w b c = gnreluAt ε f c (w c) (b c) := rfl

/-- Group statistics only see the group: two rows that agree on the group of `c` (shifted by `o`, a multiple of 8)
    have the same normalized value there. -/
theorem gnreluAt_shift (ε : ℝ) (f h : ℕ → ℝ) (o c : ℕ) (ho : o % 8 = 0) (hfh : ∀ n, n / 8 = c / 8 → f (o + n) = h n) (wv bv : ℝ) :
    gnreluAt ε f (o + c) wv bv = gnreluAt ε h c wv bv := by
  have hg : 8 * ((o + c) / 8) = o + 8 * (c / 8) := by omega
  have hk : ∀ k : Fin 8, f (8 * ((o + c) / 8) + k.val) = h (8 * (c / 8) + k.val) := fun k => by
    rw [hg, Nat.add_assoc]
    exact hfh _ (by have := k.isLt; omega)
  have hm : gmean f (o + c) = gmean h c := by
    unfold gmean
    rw [Finset.sum_congr rfl fun k _ => hk k]
  have hv : gvar f (o + c) = gvar h c := by
    unfold gvar
    rw [hm, Finset.sum_congr rfl fun k _ => by rw [hk k]]
  unfold gnreluAt
  rw [hm, hv, hfh c rfl]

theorem gnrelu_cat_first (ε : ℝ) (s t e w b : ℕ → ℝ) (c : ℕ) (hc : c < 128) :
    gnrelu ε (cat s t e) w b c = gnreluAt ε s c (w c) (b c) := by
  rw [gnrelu_eq]
  have := gnreluAt_shift ε (cat s t e) s 0 c rfl (fun n hn => by
    have hn' : n < 128 := by omega
    show cat s t e (0 + n) = s n
    rw [Nat.zero_add]; unfold cat; rw [if_pos hn']) (w c) (b c)
  rwa [Nat.zero_add] at this

theorem gnrelu_cat_second (ε : ℝ) (s t e w b : ℕ → ℝ) (c : ℕ) (hc : c < 128) :
    gnrelu ε (cat s t e) w b (128 + c) = gnreluAt ε t c (w (128 + c)) (b (128 + c)) := by
  rw [gnrelu_eq]
  exact gnreluAt_shift ε (cat s t e) t 128 c rfl (fun n hn => by
    have hn' : n < 128 := by omega
    unfold cat
    rw [if_neg (by omega), if_pos (by omega)]
    congr 1; omega) _ _

theorem gnrelu_cat_third (ε : ℝ) (s t e w b : ℕ → ℝ) (c : ℕ) (hc : c < 128) :
    gnrelu ε (cat s t e) w b (256 + c) = gnreluAt ε e c (w (256 + c)) (b (256 + c)) := by
  rw [gnrelu_eq]
  exact gnreluAt_shift ε (cat s t e) e 256 c rfl (fun n hn => by
    unfold cat
    rw [if_neg (by omega), if_neg (by omega)]
    congr 1; omega) _ _

/-- The first layer on the concatenation, as the three products the kernel adds. -/
theorem lin384_split (ε : ℝ) (s t e w b : ℕ → ℝ) (W : ℕ → ℕ → ℝ) (c1 : ℕ → ℝ) (j : ℕ) :
    lin384 (gnrelu ε (cat s t e) w b) W c1 j
      = ((∑ c : Fin 128, gnreluAt ε s c.val (w c.val) (b c.val) * W c.val j
          + ∑ c : Fin 128, gnreluAt ε t c.val (w (128 + c.val)) (b (128 + c.val)) * W (128 + c.val) j)
          + ∑ c : Fin 128, gnreluAt ε e c.val (w (256 + c.val)) (b (256 + c.val)) * W (256 + c.val) j) + c1 j := by
  have h0 := sum_three_segments (fun n => gnrelu ε (cat s t e) w b n * W n j)
  have h1 : ∑ c : Fin 128, gnrelu ε (cat s t e) w b c.val * W c.val j
      = ∑ c : Fin 128, gnreluAt ε s c.val (w c.val) (b c.val) * W c.val j :=
    Finset.sum_congr rfl fun c _ => by rw [gnrelu_cat_first ε s t e w b c.val c.isLt]
  have h2 : ∑ c : Fin 128, gnrelu ε (cat s t e) w b (128 + c.val) * W (128 + c.val) j
      = ∑ c : Fin 128, gnreluAt ε t c.val (w (128 + c.val)) (b (128 + c.val)) * W (128 + c.val) j :=
    Finset.sum_congr rfl fun c _ => by rw [gnrelu_cat_second ε s t e w b c.val c.isLt]
  have h3 : ∑ c : Fin 128, gnrelu ε (cat s t e) w b (256 + c.val) * W (256 + c.val) j
      = ∑ c : Fin 128, gnreluAt ε e c.val (w (256 + c.val)) (b (256 + c.val)) * W (256 + c.val) j :=
    Finset.sum_congr rfl fun c _ => by rw [gnrelu_cat_third ε s t e w b c.val c.isLt]
  unfold lin384
  rw [h0, h1, h2, h3]

end Cert.EdgeMlp

end
-- ==== Proof.KernelBody.lean ====
/-
  The whole kernel body, read at one entry of the block it stores.

  `bodyValue` is the stored value as one function of the eleven loaded blocks: the three row blocks are normalized
  separately (each with its own 128 entries of the first scale and shift), rectified, multiplied by the three 128 × 128
  slices of the first weight and added, the first bias is added, the sum is normalized and rectified again, multiplied by
  the second weight, and the second bias and the third row block are added. On real inputs its entry at row `p`, column `q`
  is the real `out` of the three rows: the per-segment normalizations are the normalization of the concatenation (no group
  straddles a segment), and the three partial products add up to the product with the whole first weight.
-/
import proofs.«164875_j15401752724192_2_alg».proof.Proof.KernelNorm
import proofs.«164875_j15401752724192_2_alg».proof.Proof.EdgeSplit
import proofs.«164875_j15401752724192_2_alg».proof.Proof.Gen.KernelIdeal.Frame

set_option maxRecDepth 16384

noncomputable section

open scoped BigOperators

namespace Cert.KernelIdeal.Row

open Cert.KernelIdeal Cert.KernelIdeal.Gen Idealize.ShloMosaic Idealize.ShloMosaic.ValueIdx Cert.EdgeMlp

/-- One input segment through its normalization: block `x`, with entries `o … o+127` of the first scale and shift. -/
def segment (o : Nat) (x : FVec Ideal S4096x128 .f32) (x3 x4 : FVec Ideal S384 .f32) (h : S384.Slices ![o] S128) : FVec Ideal S4096x128 .f32 :=
  scaleShiftRelu (normalized x toGroupsMat (k0_pay6 (F := Ideal))) (extractStridedSlice S128 ![o] x3 h) (extractStridedSlice S128 ![o] x4 h)

/-- A product with a 128 × 128 matrix into the zero accumulator. -/
abbrev times (h : FVec Ideal S4096x128 .f32) (W : FVec Ideal S128x128 .f32) : FVec Ideal S4096x128 .f32 :=
  matmul dot_S4096x128_S128x128_S4096x128_1_0_0_1_n_n none h W (constant S4096x128 .f32 0x00000000#32)

/-- A vector of 128 parameters laid along every row of a block. -/
abbrev alongRows (v : FVec Ideal S128 .f32) : FVec Ideal S4096x128 .f32 :=
  broadcastTo S4096x128 (shapeCast S1x128 v shapeCasts_S128_S1x128) broadcasts_S1x128_S4096x128

theorem alongRows_apply (v : FVec Ideal S128 .f32) (p : Fin 4096) (c : Fin 128) : alongRows v (ix2 p c) = v (ix1 c) :=
  rowBroadcast_apply v p c

/-- The input of the second normalization: the three partial products and the first bias. -/
def firstLayer (x0 x1 x2 : FVec Ideal S4096x128 .f32) (x3 x4 : FVec Ideal S384 .f32) (x5 : FVec Ideal S384x128 .f32) (x6 : FVec Ideal S128 .f32) : FVec Ideal S4096x128 .f32 :=
  addf (addf (addf
    (times (segment 0 x0 x3 x4 slices_S384_o0_S128) (extractStridedSlice S128x128 ![0, 0] x5 slices_S384x128_o0_0_S128x128))
    (times (segment 128 x1 x3 x4 slices_S384_o128_S128) (extractStridedSlice S128x128 ![128, 0] x5 slices_S384x128_o128_0_S128x128)))
    (times (segment 256 x2 x3 x4 slices_S384_o256_S128) (extractStridedSlice S128x128 ![256, 0] x5 slices_S384x128_o256_0_S128x128)))
    (alongRows x6)

/-- The value the body stores, from the eleven loaded blocks. -/
def bodyValue (x0 x1 x2 : FVec Ideal S4096x128 .f32) (x3 x4 : FVec Ideal S384 .f32) (x5 : FVec Ideal S384x128 .f32) (x6 x7 x8 : FVec Ideal S128 .f32)
    (x9 : FVec Ideal S128x128 .f32) (x10 : FVec Ideal S128 .f32) : FVec Ideal S4096x128 .f32 :=
  addf (addf
    (times (scaleShiftRelu (normalized (firstLayer x0 x1 x2 x3 x4 x5 x6) toGroupsMat (k0_pay6 (F := Ideal))) x7 x8) x9)
    (alongRows x10)) x2

/-- What the frame records as the output block after the body is this function of the input blocks. -/
theorem out_eq_bodyValue (x0 x1 x2 : Vec Ideal S4096x128 .f32) (x3 x4 : Vec Ideal S384 .f32) (x5 : Vec Ideal S384x128 .f32) (x6 x7 x8 : Vec Ideal S128 .f32)
    (x9 : Vec Ideal S128x128 .f32) (x10 : Vec Ideal S128 .f32) :
    out0_11 (F := Ideal) x0 x1 x2 x3 x4 x5 x6 x7 x8 x9 x10 = bodyValue x0 x1 x2 x3 x4 x5 x6 x7 x8 x9 x10 := by
  have hz2 : (![0, 0] : Fin S4096x128.rank → Nat) = fun _ => 0 := by funext a; match a with | ⟨0, _⟩ => rfl | ⟨1, _⟩ => rfl
  have hz1 : (![0] : Fin S384.rank → Nat) = fun _ => 0 := by funext a; match a with | ⟨0, _⟩ => rfl
  have hz1' : (![0] : Fin S128.rank → Nat) = fun _ => 0 := by funext a; match a with | ⟨0, _⟩ => rfl
  have hz2' : (![0, 0] : Fin S384x128.rank → Nat) = fun _ => 0 := by funext a; match a with | ⟨0, _⟩ => rfl | ⟨1, _⟩ => rfl
  have hz2'' : (![0, 0] : Fin S128x128.rank → Nat) = fun _ => 0 := by funext a; match a with | ⟨0, _⟩ => rfl | ⟨1, _⟩ => rfl
  unfold out0_11
  rw [View.canon_unit_zero hz2]
  simp only [View.ld_unit_zero (S := S4096x128) hz2, View.ld_unit_zero (S := S384) hz1, View.ld_unit_zero (S := S128) hz1',
    View.ld_unit_zero (S := S384x128) hz2', View.ld_unit_zero (S := S128x128) hz2'']
  rfl

/-! ## Entries -/

/-- One segment at row `p`, channel `c`, on a real row `f` and real scale and shift. -/
theorem segment_entry (o : Nat) (x : FVec Ideal S4096x128 .f32) (x3 x4 : FVec Ideal S384 .f32) (h : S384.Slices ![o] S128) (ho : o + 128 ≤ 384)
    (p : Fin 4096) (f w b : ℕ → ℝ) (hx : ∀ c : Fin 128, x (ix2 p c) = ((f c.val : ℝ) : EReal))
    (h3 : ∀ c : Fin 384, x3 (ix1 c) = ((w c.val : ℝ) : EReal)) (h4 : ∀ c : Fin 384, x4 (ix1 c) = ((b c.val : ℝ) : EReal)) (c : Fin 128) :
    segment o x x3 x4 h (ix2 p c) = ((gnreluAt eps f c.val (w (o + c.val)) (b (o + c.val)) : ℝ) : EReal) := by
  have hk : o + c.val < 384 := by have := c.isLt; omega
  unfold segment
  rw [scaleShiftRelu_entry _ _ _ p c _ (w (o + c.val)) (b (o + c.val))
    (normalized_entry x toGroupsMat (k0_pay6 (F := Ideal)) p f hx toGroupsMat_entry fromGroupsMat_entry c)
    ((slice128_apply o x3 h c ⟨o + c.val, hk⟩ rfl).trans (h3 ⟨o + c.val, hk⟩))
    ((slice128_apply o x4 h c ⟨o + c.val, hk⟩ rfl).trans (h4 ⟨o + c.val, hk⟩))]
  rfl

/-- A product of a real row with a real matrix, at an entry. -/
theorem times_entry (h : FVec Ideal S4096x128 .f32) (W : FVec Ideal S128x128 .f32) (p : Fin 4096) (j : Fin 128) (hr : ℕ → ℝ) (Wr : ℕ → ℝ)
    (hh : ∀ k : Fin 128, h (ix2 p k) = ((hr k.val : ℝ) : EReal)) (hW : ∀ k : Fin 128, W (ix2 k j) = ((Wr k.val : ℝ) : EReal)) :
    times h W (ix2 p j) = ((∑ k : Fin 128, hr k.val * Wr k.val : ℝ) : EReal) := by
  show matmul _ none h W _ (ix2 p j) = _
  rw [layer_apply, Finset.sum_congr rfl fun k _ => by rw [hh k, hW k, ← EReal.coe_mul], coe_sum]

/-- The first layer at an entry: the real first layer of the normalized concatenation. -/
theorem firstLayer_entry (x0 x1 x2 : FVec Ideal S4096x128 .f32) (x3 x4 : FVec Ideal S384 .f32) (x5 : FVec Ideal S384x128 .f32) (x6 : FVec Ideal S128 .f32)
    (p : Fin 4096) (s t e w1 b1 : ℕ → ℝ) (W1 : ℕ → ℕ → ℝ) (c1 : ℕ → ℝ)
    (h0 : ∀ c : Fin 128, x0 (ix2 p c) = ((s c.val : ℝ) : EReal)) (h1 : ∀ c : Fin 128, x1 (ix2 p c) = ((t c.val : ℝ) : EReal))
    (h2 : ∀ c : Fin 128, x2 (ix2 p c) = ((e c.val : ℝ) : EReal))
    (h3 : ∀ c : Fin 384, x3 (ix1 c) = ((w1 c.val : ℝ) : EReal)) (h4 : ∀ c : Fin 384, x4 (ix1 c) = ((b1 c.val : ℝ) : EReal))
    (h5 : ∀ (r : Fin 384) (c : Fin 128), x5 (ix2 r c) = ((W1 r.val c.val : ℝ) : EReal)) (h6 : ∀ c : Fin 128, x6 (ix1 c) = ((c1 c.val : ℝ) : EReal))
    (j : Fin 128) :
    firstLayer x0 x1 x2 x3 x4 x5 x6 (ix2 p j) = ((lin384 (gnrelu eps (cat s t e) w1 b1) W1 c1 j.val : ℝ) : EReal) := by
  unfold firstLayer
  rw [addf_apply, addf_apply, addf_apply, alongRows_apply, h6 j,
    times_entry _ _ p j (fun n => gnreluAt eps s n (w1 (0 + n)) (b1 (0 + n))) (fun n => W1 (0 + n) j.val)
      (segment_entry 0 x0 x3 x4 _ (by omega) p s w1 b1 h0 h3 h4)
      (fun k => (slice2_axis0_eq 0 x5 _ k j).trans (h5 _ j)),
    times_entry _ _ p j (fun n => gnreluAt eps t n (w1 (128 + n)) (b1 (128 + n))) (fun n => W1 (128 + n) j.val)
      (segment_entry 128 x1 x3 x4 _ (by omega) p t w1 b1 h1 h3 h4)
      (fun k => (slice2_axis0_eq 128 x5 _ k j).trans (h5 _ j)),
    times_entry _ _ p j (fun n => gnreluAt eps e n (w1 (256 + n)) (b1 (256 + n))) (fun n => W1 (256 + n) j.val)
      (segment_entry 256 x2 x3 x4 _ (by omega) p e w1 b1 h2 h3 h4)
      (fun k => (slice2_axis0_eq 256 x5 _ k j).trans (h5 _ j)),
    ← EReal.coe_add, ← EReal.coe_add, ← EReal.coe_add, lin384_split]
  simp only [Nat.zero_add]

/-- The stored value at row `p`, column `q`, on real inputs: the real edge function of the three rows. -/
theorem bodyValue_entry (x0 x1 x2 : FVec Ideal S4096x128 .f32) (x3 x4 : FVec Ideal S384 .f32) (x5 : FVec Ideal S384x128 .f32) (x6 x7 x8 : FVec Ideal S128 .f32)
    (x9 : FVec Ideal S128x128 .f32) (x10 : FVec Ideal S128 .f32)
    (p : Fin 4096) (s t e w1 b1 : ℕ → ℝ) (W1 : ℕ → ℕ → ℝ) (c1 w2 b2 : ℕ → ℝ) (W2 : ℕ → ℕ → ℝ) (c2 : ℕ → ℝ)
    (h0 : ∀ c : Fin 128, x0 (ix2 p c) = ((s c.val : ℝ) : EReal)) (h1 : ∀ c : Fin 128, x1 (ix2 p c) = ((t c.val : ℝ) : EReal))
    (h2 : ∀ c : Fin 128, x2 (ix2 p c) = ((e c.val : ℝ) : EReal))
    (h3 : ∀ c : Fin 384, x3 (ix1 c) = ((w1 c.val : ℝ) : EReal)) (h4 : ∀ c : Fin 384, x4 (ix1 c) = ((b1 c.val : ℝ) : EReal))
    (h5 : ∀ (r : Fin 384) (c : Fin 128), x5 (ix2 r c) = ((W1 r.val c.val : ℝ) : EReal)) (h6 : ∀ c : Fin 128, x6 (ix1 c) = ((c1 c.val : ℝ) : EReal))
    (h7 : ∀ c : Fin 128, x7 (ix1 c) = ((w2 c.val : ℝ) : EReal)) (h8 : ∀ c : Fin 128, x8 (ix1 c) = ((b2 c.val : ℝ) : EReal))
    (h9 : ∀ (r c : Fin 128), x9 (ix2 r c) = ((W2 r.val c.val : ℝ) : EReal)) (h10 : ∀ c : Fin 128, x10 (ix1 c) = ((c2 c.val : ℝ) : EReal))
    (q : Fin 128) :
    bodyValue x0 x1 x2 x3 x4 x5 x6 x7 x8 x9 x10 (ix2 p q) = ((out eps s t e w1 b1 W1 c1 w2 b2 W2 c2 q.val : ℝ) : EReal) := by
  have hfl := firstLayer_entry x0 x1 x2 x3 x4 x5 x6 p s t e w1 b1 W1 c1 h0 h1 h2 h3 h4 h5 h6
  have hsec : ∀ c : Fin 128, scaleShiftRelu (normalized (firstLayer x0 x1 x2 x3 x4 x5 x6) toGroupsMat (k0_pay6 (F := Ideal))) x7 x8 (ix2 p c)
      = ((gnrelu eps (lin384 (gnrelu eps (cat s t e) w1 b1) W1 c1) w2 b2 c.val : ℝ) : EReal) := fun c =>
    scaleShiftRelu_entry _ _ _ p c _ (w2 c.val) (b2 c.val)
      (normalized_entry _ toGroupsMat (k0_pay6 (F := Ideal)) p (lin384 (gnrelu eps (cat s t e) w1 b1) W1 c1) hfl toGroupsMat_entry fromGroupsMat_entry c)
      (h7 c) (h8 c)
  unfold bodyValue
  rw [addf_apply, addf_apply, alongRows_apply, h10 q, h2 q,
    times_entry _ _ p q (gnrelu eps (lin384 (gnrelu eps (cat s t e) w1 b1) W1 c1) w2 b2) (fun n => W2 n q.val) hsec (fun k => h9 k q),
    ← EReal.coe_add, ← EReal.coe_add]
  rfl

end Cert.KernelIdeal.Row

end
-- ==== Proof.KernelRows.lean ====
/-
  The kernel's whole output array on real inputs.

  Row `r` of the output is row `r % 4096` of the body's result on the blocks of grid point `r / 4096`; the three row blocks
  of that point hold rows `4096·(r / 4096) + p` of the first three arguments and the other eight blocks are the whole
  parameter arrays. So entry `(r, q)` of the output is the real edge function `out` of row `r` of the three inputs.
-/
import proofs.«164875_j15401752724192_2_alg».proof.Proof.RowBlocks
import proofs.«164875_j15401752724192_2_alg».proof.Proof.KernelBody

set_option maxRecDepth 16384

noncomputable section

open scoped BigOperators

namespace Cert.KernelIdeal.Row

open Cert.KernelIdeal Cert.KernelIdeal.Gen Cert.KernelIdeal.RowBlocks Idealize.ShloMosaic Idealize.ShloMosaic.TcCoe Idealize.ShloMosaic.ValueIdx
  Idealize.SL.Sem Cert.EdgeMlp

theorem wholeOut_real (m : (ℓ : Loc nD τ sig) → Buf (Elt Ideal) ℓ) (c : Dev nD) (i : S262144x128.Idx)
    (a0 a1 a2 : S262144x128.Idx → EReal) (a3 a4 : S384.Idx → EReal) (a5 : S384x128.Idx → EReal) (a6 a7 a8 : S128.Idx → EReal)
    (a9 : S128x128.Idx → EReal) (a10 : S128.Idx → EReal)
    (e0 : (m ((c : Thread nD τ).loc main_arg0) : S262144x128.Idx → Elt Ideal .f32) = a0)
    (e1 : (m ((c : Thread nD τ).loc main_arg1) : S262144x128.Idx → Elt Ideal .f32) = a1)
    (e2 : (m ((c : Thread nD τ).loc main_arg2) : S262144x128.Idx → Elt Ideal .f32) = a2)
    (e3 : (m ((c : Thread nD τ).loc main_arg3) : S384.Idx → Elt Ideal .f32) = a3)
    (e4 : (m ((c : Thread nD τ).loc main_arg4) : S384.Idx → Elt Ideal .f32) = a4)
    (e5 : (m ((c : Thread nD τ).loc main_arg5) : S384x128.Idx → Elt Ideal .f32) = a5)
    (e6 : (m ((c : Thread nD τ).loc main_arg6) : S128.Idx → Elt Ideal .f32) = a6)
    (e7 : (m ((c : Thread nD τ).loc main_arg7) : S128.Idx → Elt Ideal .f32) = a7)
    (e8 : (m ((c : Thread nD τ).loc main_arg8) : S128.Idx → Elt Ideal .f32) = a8)
    (e9 : (m ((c : Thread nD τ).loc main_arg9) : S128x128.Idx → Elt Ideal .f32) = a9)
    (e10 : (m ((c : Thread nD τ).loc main_arg10) : S128.Idx → Elt Ideal .f32) = a10)
    (h0 : ∀ j, ∃ r : ℝ, a0 j = (r : EReal)) (h1 : ∀ j, ∃ r : ℝ, a1 j = (r : EReal)) (h2 : ∀ j, ∃ r : ℝ, a2 j = (r : EReal))
    (h3 : ∀ j, ∃ r : ℝ, a3 j = (r : EReal)) (h4 : ∀ j, ∃ r : ℝ, a4 j = (r : EReal)) (h5 : ∀ j, ∃ r : ℝ, a5 j = (r : EReal))
    (h6 : ∀ j, ∃ r : ℝ, a6 j = (r : EReal)) (h7 : ∀ j, ∃ r : ℝ, a7 j = (r : EReal)) (h8 : ∀ j, ∃ r : ℝ, a8 j = (r : EReal))
    (h9 : ∀ j, ∃ r : ℝ, a9 j = (r : EReal)) (h10 : ∀ j, ∃ r : ℝ, a10 j = (r : EReal)) :
    wholeOut m c i
      = ((out eps (fun n => matR a0 (i 0).val n) (fun n => matR a1 (i 0).val n) (fun n => matR a2 (i 0).val n) (vecR a3) (vecR a4) (matR a5)
          (vecR a6) (vecR a7) (vecR a8) (matR a9) (vecR a10) (i 1).val : ℝ) : EReal) := by
  rw [wholeOut_apply, out_eq_bodyValue]
  exact bodyValue_entry _ _ _ _ _ _ _ _ _ _ _ (⟨(i 0).val % 4096, Nat.mod_lt _ (by decide)⟩ : Fin 4096)
    (fun n => matR a0 (i 0).val n) (fun n => matR a1 (i 0).val n) (fun n => matR a2 (i 0).val n) (vecR a3) (vecR a4) (matR a5)
    (vecR a6) (vecR a7) (vecR a8) (matR a9) (vecR a10)
    (fun k => (iblk_rows0_at m c i k).trans ((congrFun e0 _).trans (matR_spec a0 h0 ⟨(i 0).val, idx2_lt0 i⟩ k)))
    (fun k => (iblk_rows1_at m c i k).trans ((congrFun e1 _).trans (matR_spec a1 h1 ⟨(i 0).val, idx2_lt0 i⟩ k)))
    (fun k => (iblk_rows2_at m c i k).trans ((congrFun e2 _).trans (matR_spec a2 h2 ⟨(i 0).val, idx2_lt0 i⟩ k)))
    (fun k => (congrFun (iblk_whole3 m c (pointOf i)) (ix1 k)).trans ((congrFun e3 _).trans (vecR_spec a3 h3 k)))
    (fun k => (congrFun (iblk_whole4 m c (pointOf i)) (ix1 k)).trans ((congrFun e4 _).trans (vecR_spec a4 h4 k)))
    (fun r k => (congrFun (iblk_whole5 m c (pointOf i)) (ix2 r k)).trans ((congrFun e5 _).trans (matR_spec a5 h5 r k)))
    (fun k => (congrFun (iblk_whole6 m c (pointOf i)) (ix1 k)).trans ((congrFun e6 _).trans (vecR_spec a6 h6 k)))
    (fun k => (congrFun (iblk_whole7 m c (pointOf i)) (ix1 k)).trans ((congrFun e7 _).trans (vecR_spec a7 h7 k)))
    (fun k => (congrFun (iblk_whole8 m c (pointOf i)) (ix1 k)).trans ((congrFun e8 _).trans (vecR_spec a8 h8 k)))
    (fun r k => (congrFun (iblk_whole9 m c (pointOf i)) (ix2 r k)).trans ((congrFun e9 _).trans (matR_spec a9 h9 r k)))
    (fun k => (congrFun (iblk_whole10 m c (pointOf i)) (ix1 k)).trans ((congrFun e10 _).trans (vecR_spec a10 h10 k)))
    (⟨(i 1).val, idx2_lt1 i⟩ : Fin 128)

end Cert.KernelIdeal.Row

end
-- ==== Proof.ReferenceRow.lean ====
/-
  The reference program's result, read at an index, is a real number: the row formula `Cert.EdgeMlp.out`.

  The reference concatenates three rows of 128 channels, normalizes each group of 8 consecutive channels (subtract the
  group's mean, divide by the square root of the group's variance plus a small positive constant), scales, shifts and
  rectifies, applies an affine layer 384 → 128, normalizes, scales, shifts and rectifies again on 16 groups of 8, applies
  an affine layer 128 → 128 and adds the third input row. Every input entry is a real number, and every operation on the
  way (a finite sum, a quotient by 8, a quotient by the square root of a positive number, a product, a sum, a maximum
  with zero) keeps real numbers real; so each stage, read at an index, is the coerced real formula of the stage.
  The stages are read one at a time, each from the previous one, at indices built from coordinates.
-/
import proofs.«164875_j15401752724192_2_alg».proof.Proof.Gen.ReferenceIdeal.Read
import proofs.«164875_j15401752724192_2_alg».proof.Proof.EdgeSpec
import proofs.«164875_j15401752724192_2_alg».proof.Proof.EdgeLaws

noncomputable section

open scoped BigOperators

namespace Cert.ReferenceIdeal.RefValue

open Cert.ReferenceIdeal Cert.ReferenceIdeal.Read Cert.EdgeMlp Idealize.ShloMosaic

/-! ## Scalar laws: the float words and the exact operations on coerced reals -/

/-- The mean of group `g` of a row: channels `8 g + k`, `k < 8`. -/
def mu (f : ℕ → ℝ) (g : ℕ) : ℝ := (∑ k : Fin 8, f (8 * g + k.val)) / 8

/-- The variance of group `g` of a row. -/
def va (f : ℕ → ℝ) (g : ℕ) : ℝ := (∑ k : Fin 8, (f (8 * g + k.val) - mu f g) * (f (8 * g + k.val) - mu f g)) / 8

theorem gmean_eq (f : ℕ → ℝ) (c : ℕ) : gmean f c = mu f (c / 8) := rfl
theorem gvar_eq (f : ℕ → ℝ) (c : ℕ) : gvar f c = va f (c / 8) := rfl

theorem va_eps_pos (f : ℕ → ℝ) (g : ℕ) : 0 < va f g + eps :=
  add_pos_of_nonneg_of_pos (var_nonneg _ _) word_eps.2

/-- A sum of eight reals from the zero word. -/
theorem s_sum (f : Fin 8 → ℝ) : Ideal.ofBits .f32 0x00000000#32 + ∑ k : Fin 8, ((f k : ℝ) : EReal) = ((∑ k : Fin 8, f k : ℝ) : EReal) := by
  rw [word_zero, coe_sum, ← EReal.coe_add, zero_add]

/-- A quotient by the word 8. -/
theorem s_div8 (a : ℝ) : Ideal.div (a : EReal) (Ideal.ofBits .f32 0x41000000#32) = ((a / 8 : ℝ) : EReal) := by
  rw [word_eight, coe_div_eight]

/-- Adding the stabilizer word. -/
theorem s_add_eps (v : ℝ) : (v : EReal) + Ideal.ofBits .f32 0x3727C5AC#32 = ((v + eps : ℝ) : EReal) := by
  rw [word_eps.1, ← EReal.coe_add]

/-- The maximum with the zero word. -/
theorem s_relu (a : ℝ) : max (a : EReal) (Ideal.ofBits .f32 0x00000000#32) = ((max a 0 : ℝ) : EReal) := by
  rw [word_zero, coe_max_zero]

/-! ## The concatenated row -/

section Stages

variable {x0 x1 x2 : (⟨S262144x128, .f32⟩ : BufTy).Contents (Elt Ideal)} {x3 x4 : (⟨S384, .f32⟩ : BufTy).Contents (Elt Ideal)} {x5 : (⟨S384x128, .f32⟩ : BufTy).Contents (Elt Ideal)}
  {x6 x7 x8 : (⟨S128, .f32⟩ : BufTy).Contents (Elt Ideal)} {x9 : (⟨S128x128, .f32⟩ : BufTy).Contents (Elt Ideal)} {x10 : (⟨S128, .f32⟩ : BufTy).Contents (Elt Ideal)}
variable (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal))
  (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal))

/-- Row `e` of the three inputs side by side, as a real function of the channel. -/
def row (x0 x1 x2 : (⟨S262144x128, .f32⟩ : BufTy).Contents (Elt Ideal)) (e : ℕ) : ℕ → ℝ :=
  cat (fun c => matR x0 e c) (fun c => matR x1 e c) (fun c => matR x2 e c)

include h0 h1 h2 in
/-- The concatenation at row `e`, channel `c`. -/
theorem v0_at (e : Fin 262144) (c : Fin 384) :
    val_main_v0 (F := Ideal) x0 x1 x2 (ValueIdx.ix2 e c) = ((row x0 x1 x2 e.val c.val : ℝ) : EReal) := by
  unfold val_main_v0 row cat
  have hc := c.isLt
  by_cases hc1 : c.val < 128
  · rw [if_pos hc1]
    refine (concatenate_apply_piece (1 : Fin 2) [⟨S262144x128, x0⟩, ⟨S262144x128, x1⟩, ⟨S262144x128, x2⟩] _ (ValueIdx.ix2 e c) 0 (Nat.lt_of_sub_eq_succ rfl) S262144x128 x0 rfl rfl 0 rfl
      (ValueIdx.ix2 e ⟨c.val, hc1⟩) ?_ ?_).trans (matR_spec x0 h0 e ⟨c.val, hc1⟩)
    · intro b hb
      match b with
      | ⟨0, _⟩ => rfl
      | ⟨1, _⟩ => exact absurd (Fin.ext rfl) hb
    · show 0 + c.val = c.val
      omega
  · rw [if_neg hc1]
    by_cases hc2 : c.val < 256
    · rw [if_pos hc2]
      have hlt : c.val - 128 < 128 := by omega
      refine (concatenate_apply_piece (1 : Fin 2) [⟨S262144x128, x0⟩, ⟨S262144x128, x1⟩, ⟨S262144x128, x2⟩] _ (ValueIdx.ix2 e c) 1 (Nat.lt_of_sub_eq_succ rfl) S262144x128 x1 rfl rfl 128 rfl
        (ValueIdx.ix2 e ⟨c.val - 128, hlt⟩) ?_ ?_).trans (matR_spec x1 h1 e ⟨c.val - 128, hlt⟩)
      · intro b hb
        match b with
        | ⟨0, _⟩ => rfl
        | ⟨1, _⟩ => exact absurd (Fin.ext rfl) hb
      · show 128 + (c.val - 128) = c.val
        omega
    · rw [if_neg hc2]
      have hlt : c.val - 256 < 128 := by omega
      refine (concatenate_apply_piece (1 : Fin 2) [⟨S262144x128, x0⟩, ⟨S262144x128, x1⟩, ⟨S262144x128, x2⟩] _ (ValueIdx.ix2 e c) 2 (Nat.lt_of_sub_eq_succ rfl) S262144x128 x2 rfl rfl 256 rfl
        (ValueIdx.ix2 e ⟨c.val - 256, hlt⟩) ?_ ?_).trans (matR_spec x2 h2 e ⟨c.val - 256, hlt⟩)
      · intro b hb
        match b with
        | ⟨0, _⟩ => rfl
        | ⟨1, _⟩ => exact absurd (Fin.ext rfl) hb
      · show 256 + (c.val - 256) = c.val
        omega

/-! ## The first normalization (48 groups of 8 on 384 channels) -/

include h0 h1 h2 in
/-- The row regrouped: group `g`, member `k` is channel `8 g + k`. -/
theorem v1_at (e : Fin 262144) (g : Fin 48) (k : Fin 8) :
    val_main_v1 (F := Ideal) x0 x1 x2 (ValueIdx.ix3 e g k) = (((row x0 x1 x2 e.val) (8 * g.val + k.val) : ℝ) : EReal) := by
  have hg := g.isLt; have hk := k.isLt; have he := e.isLt
  have hc : 8 * g.val + k.val < 384 := by omega
  rw [val_main_v1_apply]
  have hi : idx_main_v1 (ValueIdx.ix3 e g k) = ValueIdx.ix2 e ⟨8 * g.val + k.val, hc⟩ := by
    funext a
    match a with
    | ⟨0, _⟩ => exact Fin.ext (by show ((e.val * 48 + g.val) * 8 + k.val) / 384 = e.val; omega)
    | ⟨1, _⟩ => exact Fin.ext (by show ((e.val * 48 + g.val) * 8 + k.val) % 384 = 8 * g.val + k.val; omega)
  rw [hi]
  exact v0_at h0 h1 h2 e ⟨_, hc⟩

include h0 h1 h2 in
/-- The sum over a group. -/
theorem v2_at (e : Fin 262144) (g : Fin 48) :
    val_main_v2 (F := Ideal) x0 x1 x2 (ValueIdx.ix2 e g) = ((∑ k : Fin 8, (row x0 x1 x2 e.val) (8 * g.val + k.val) : ℝ) : EReal) := by
  rw [val_main_v2_apply, val_main_cst_apply]
  have hk : ∀ k : Fin 8, val_main_v1 (F := Ideal) x0 x1 x2 (idx_main_v2 (ValueIdx.ix2 e g) k) = (((row x0 x1 x2 e.val) (8 * g.val + k.val) : ℝ) : EReal) := fun k => by
    rw [show idx_main_v2 (ValueIdx.ix2 e g) k = ValueIdx.ix3 e g k from funext fun a => by match a with | ⟨0, _⟩ => rfl | ⟨1, _⟩ => rfl | ⟨2, _⟩ => rfl]
    exact v1_at h0 h1 h2 e g k
  simp only [hk]
  exact s_sum _

include h0 h1 h2 in
/-- The mean of a group. -/
theorem v5_at (e : Fin 262144) (g : Fin 48) (z : Fin 1) :
    val_main_v5 (F := Ideal) x0 x1 x2 (ValueIdx.ix3 e g z) = ((mu (row x0 x1 x2 e.val) g.val : ℝ) : EReal) := by
  rw [val_main_v5_apply, val_main_v3_apply, val_main_v4_apply, val_main_cst_0_apply]
  rw [show idx_main_v3 (ValueIdx.ix3 e g z) = ValueIdx.ix2 e g from funext fun a => by match a with | ⟨0, _⟩ => rfl | ⟨1, _⟩ => rfl]
  rw [v2_at h0 h1 h2 e g]
  exact s_div8 _

include h0 h1 h2 in
/-- The deviation from the group's mean. -/
theorem v7_at (e : Fin 262144) (g : Fin 48) (k : Fin 8) :
    val_main_v7 (F := Ideal) x0 x1 x2 (ValueIdx.ix3 e g k) = (((row x0 x1 x2 e.val) (8 * g.val + k.val) - mu (row x0 x1 x2 e.val) g.val : ℝ) : EReal) := by
  rw [val_main_v7_apply, val_main_v6_apply]
  rw [show idx_main_v6 (ValueIdx.ix3 e g k) = ValueIdx.ix3 e g (⟨0, Nat.one_pos⟩ : Fin 1) from funext fun a => by match a with | ⟨0, _⟩ => rfl | ⟨1, _⟩ => rfl | ⟨2, _⟩ => rfl]
  rw [v1_at h0 h1 h2 e g k, v5_at h0 h1 h2 e g]
  exact (EReal.coe_sub _ _).symm

include h0 h1 h2 in
/-- The squared deviation. -/
theorem v8_at (e : Fin 262144) (g : Fin 48) (k : Fin 8) :
    val_main_v8 (F := Ideal) x0 x1 x2 (ValueIdx.ix3 e g k)
      = ((((row x0 x1 x2 e.val) (8 * g.val + k.val) - mu (row x0 x1 x2 e.val) g.val) * ((row x0 x1 x2 e.val) (8 * g.val + k.val) - mu (row x0 x1 x2 e.val) g.val) : ℝ) : EReal) := by
  rw [val_main_v8_apply, v7_at h0 h1 h2 e g k]
  exact (EReal.coe_mul _ _).symm

include h0 h1 h2 in
/-- The sum of the squared deviations of a group. -/
theorem v9_at (e : Fin 262144) (g : Fin 48) :
    val_main_v9 (F := Ideal) x0 x1 x2 (ValueIdx.ix2 e g)
      = ((∑ k : Fin 8, ((row x0 x1 x2 e.val) (8 * g.val + k.val) - mu (row x0 x1 x2 e.val) g.val) * ((row x0 x1 x2 e.val) (8 * g.val + k.val) - mu (row x0 x1 x2 e.val) g.val) : ℝ) : EReal) := by
  rw [val_main_v9_apply, val_main_cst_1_apply]
  have hk : ∀ k : Fin 8, val_main_v8 (F := Ideal) x0 x1 x2 (idx_main_v9 (ValueIdx.ix2 e g) k)
      = ((((row x0 x1 x2 e.val) (8 * g.val + k.val) - mu (row x0 x1 x2 e.val) g.val) * ((row x0 x1 x2 e.val) (8 * g.val + k.val) - mu (row x0 x1 x2 e.val) g.val) : ℝ) : EReal) := fun k => by
    rw [show idx_main_v9 (ValueIdx.ix2 e g) k = ValueIdx.ix3 e g k from funext fun a => by match a with | ⟨0, _⟩ => rfl | ⟨1, _⟩ => rfl | ⟨2, _⟩ => rfl]
    exact v8_at h0 h1 h2 e g k
  simp only [hk]
  exact s_sum _

include h0 h1 h2 in
/-- The variance of a group. -/
theorem v12_at (e : Fin 262144) (g : Fin 48) (z : Fin 1) :
    val_main_v12 (F := Ideal) x0 x1 x2 (ValueIdx.ix3 e g z) = ((va (row x0 x1 x2 e.val) g.val : ℝ) : EReal) := by
  rw [val_main_v12_apply, val_main_v10_apply, val_main_v11_apply, val_main_cst_2_apply]
  rw [show idx_main_v10 (ValueIdx.ix3 e g z) = ValueIdx.ix2 e g from funext fun a => by match a with | ⟨0, _⟩ => rfl | ⟨1, _⟩ => rfl]
  rw [v9_at h0 h1 h2 e g]
  exact s_div8 _

include h0 h1 h2 in
/-- The deviation again (the program forms it twice). -/
theorem v14_at (e : Fin 262144) (g : Fin 48) (k : Fin 8) :
    val_main_v14 (F := Ideal) x0 x1 x2 (ValueIdx.ix3 e g k) = (((row x0 x1 x2 e.val) (8 * g.val + k.val) - mu (row x0 x1 x2 e.val) g.val : ℝ) : EReal) := by
  rw [val_main_v14_apply, val_main_v13_apply]
  rw [show idx_main_v13 (ValueIdx.ix3 e g k) = ValueIdx.ix3 e g (⟨0, Nat.one_pos⟩ : Fin 1) from funext fun a => by match a with | ⟨0, _⟩ => rfl | ⟨1, _⟩ => rfl | ⟨2, _⟩ => rfl]
  rw [v1_at h0 h1 h2 e g k, v5_at h0 h1 h2 e g]
  exact (EReal.coe_sub _ _).symm

include h0 h1 h2 in
/-- The square root of the stabilized variance, still as the extended-real operation on a coerced positive real. -/
theorem v17_at (e : Fin 262144) (g : Fin 48) (z : Fin 1) :
    val_main_v17 (F := Ideal) x0 x1 x2 (ValueIdx.ix3 e g z) = Ideal.sqrt ((va (row x0 x1 x2 e.val) g.val + eps : ℝ) : EReal) := by
  rw [val_main_v17_apply, val_main_v16_apply, val_main_v15_apply, val_main_cst_3_apply]
  rw [v12_at h0 h1 h2 e g z]
  exact congrArg Ideal.sqrt (s_add_eps _)

include h0 h1 h2 in
/-- The normalized member of a group. -/
theorem v19_at (e : Fin 262144) (g : Fin 48) (k : Fin 8) :
    val_main_v19 (F := Ideal) x0 x1 x2 (ValueIdx.ix3 e g k)
      = ((((row x0 x1 x2 e.val) (8 * g.val + k.val) - mu (row x0 x1 x2 e.val) g.val) / Real.sqrt (va (row x0 x1 x2 e.val) g.val + eps) : ℝ) : EReal) := by
  rw [val_main_v19_apply, val_main_v18_apply]
  rw [show idx_main_v18 (ValueIdx.ix3 e g k) = ValueIdx.ix3 e g (⟨0, Nat.one_pos⟩ : Fin 1) from funext fun a => by match a with | ⟨0, _⟩ => rfl | ⟨1, _⟩ => rfl | ⟨2, _⟩ => rfl]
  rw [v14_at h0 h1 h2 e g k, v17_at h0 h1 h2 e g]
  exact coe_div_sqrt (va_eps_pos _ _) _

include h0 h1 h2 in
/-- The normalized row, back on its channels. -/
theorem v20_at (e : Fin 262144) (c : Fin 384) :
    val_main_v20 (F := Ideal) x0 x1 x2 (ValueIdx.ix2 e c)
      = ((((row x0 x1 x2 e.val) c.val - gmean (row x0 x1 x2 e.val) c.val) / Real.sqrt (gvar (row x0 x1 x2 e.val) c.val + eps) : ℝ) : EReal) := by
  have hc := c.isLt; have he := e.isLt
  have hg : c.val / 8 < 48 := by omega
  have hk : c.val % 8 < 8 := by omega
  rw [val_main_v20_apply]
  have hi : idx_main_v20 (ValueIdx.ix2 e c) = ValueIdx.ix3 e (⟨c.val / 8, hg⟩ : Fin 48) (⟨c.val % 8, hk⟩ : Fin 8) := by
    funext a
    match a with
    | ⟨0, _⟩ => exact Fin.ext (by show (e.val * 384 + c.val) / 384 = e.val; omega)
    | ⟨1, _⟩ => exact Fin.ext (by show (e.val * 384 + c.val) / 8 % 48 = c.val / 8; omega)
    | ⟨2, _⟩ => exact Fin.ext (by show (e.val * 384 + c.val) % 8 = c.val % 8; omega)
  rw [hi, v19_at h0 h1 h2 e ⟨c.val / 8, hg⟩ ⟨c.val % 8, hk⟩, gmean_eq, gvar_eq]
  show ((((row x0 x1 x2 e.val) (8 * (c.val / 8) + c.val % 8) - mu (row x0 x1 x2 e.val) (c.val / 8)) / Real.sqrt (va (row x0 x1 x2 e.val) (c.val / 8) + eps) : ℝ) : EReal) = _
  rw [Nat.div_add_mod]

include h0 h1 h2 h3 h4 in
/-- Scaled and shifted. -/
theorem v26_at (e : Fin 262144) (c : Fin 384) :
    val_main_v26 (F := Ideal) x0 x1 x2 x3 x4 (ValueIdx.ix2 e c)
      = ((((row x0 x1 x2 e.val) c.val - gmean (row x0 x1 x2 e.val) c.val) / Real.sqrt (gvar (row x0 x1 x2 e.val) c.val + eps) * vecR x3 c.val + vecR x4 c.val : ℝ) : EReal) := by
  rw [val_main_v26_apply, val_main_v23_apply, val_main_v22_apply, val_main_v21_apply, val_main_v25_apply,
    val_main_v24_apply]
  rw [show idx_main_v21 (idx_main_v22 (ValueIdx.ix2 e c)) = ValueIdx.ix1 c from funext fun a => by match a with | ⟨0, _⟩ => rfl,
    show idx_main_v24 (idx_main_v25 (ValueIdx.ix2 e c)) = ValueIdx.ix1 c from funext fun a => by match a with | ⟨0, _⟩ => rfl]
  rw [v20_at h0 h1 h2 e c, vecR_spec x3 h3 c, vecR_spec x4 h4 c]
  show (((_ : ℝ) : EReal) * ((_ : ℝ) : EReal) + ((_ : ℝ) : EReal)) = _
  rw [← EReal.coe_mul, ← EReal.coe_add]

include h0 h1 h2 h3 h4 in
/-- Rectified: the group normalization of the row at channel `c`. -/
theorem v27_at (e : Fin 262144) (c : Fin 384) :
    val_main_v27 (F := Ideal) x0 x1 x2 x3 x4 (ValueIdx.ix2 e c) = ((gnrelu eps (row x0 x1 x2 e.val) (vecR x3) (vecR x4) c.val : ℝ) : EReal) := by
  rw [val_main_v27_apply, val_main_call0_v0_apply, val_main_call0_cst_apply, v26_at h0 h1 h2 h3 h4 e c]
  exact s_relu _

/-! ## The first affine layer -/

/-- The hidden row: the first affine layer applied to the rectified normalized concatenated row `e`. -/
def hid (x0 x1 x2 : (⟨S262144x128, .f32⟩ : BufTy).Contents (Elt Ideal)) (x3 x4 : (⟨S384, .f32⟩ : BufTy).Contents (Elt Ideal)) (x5 : (⟨S384x128, .f32⟩ : BufTy).Contents (Elt Ideal)) (x6 : (⟨S128, .f32⟩ : BufTy).Contents (Elt Ideal)) (e : ℕ) : ℕ → ℝ :=
  lin384 (gnrelu eps (row x0 x1 x2 e) (vecR x3) (vecR x4)) (matR x5) (vecR x6)

include h0 h1 h2 h3 h4 h5 h6 in
/-- The first affine layer on the rectified normalized row. -/
theorem v31_at (e : Fin 262144) (j : Fin 128) :
    val_main_v31 (F := Ideal) x0 x1 x2 x3 x4 x5 x6 (ValueIdx.ix2 e j) = ((hid x0 x1 x2 x3 x4 x5 x6 e.val j.val : ℝ) : EReal) := by
  rw [val_main_v31_apply, val_main_v28_apply, val_main_v30_apply, val_main_v29_apply]
  rw [show idx_main_v29 (idx_main_v30 (ValueIdx.ix2 e j)) = ValueIdx.ix1 j from funext fun a => by match a with | ⟨0, _⟩ => rfl, vecR_spec x6 h6 j]
  have hk : ∀ k : Fin 384, val_main_v27 (F := Ideal) x0 x1 x2 x3 x4 (lidx_main_v28 (ValueIdx.ix2 e j) k) * x5 (ridx_main_v28 (ValueIdx.ix2 e j) k)
      = ((gnrelu eps (row x0 x1 x2 e.val) (vecR x3) (vecR x4) k.val * matR x5 k.val j.val : ℝ) : EReal) := fun k => by
    rw [show lidx_main_v28 (ValueIdx.ix2 e j) k = ValueIdx.ix2 e k from funext fun a => by match a with | ⟨0, _⟩ => rfl | ⟨1, _⟩ => rfl,
      show ridx_main_v28 (ValueIdx.ix2 e j) k = ValueIdx.ix2 k j from funext fun a => by match a with | ⟨0, _⟩ => rfl | ⟨1, _⟩ => rfl]
    rw [v27_at h0 h1 h2 h3 h4 e k, matR_spec x5 h5 k j, ← EReal.coe_mul]
  simp only [hk]
  rw [coe_sum]
  exact (EReal.coe_add _ _).symm

/-! ## The second normalization (16 groups of 8 on 128 channels) -/

include h0 h1 h2 h3 h4 h5 h6 in
/-- The row regrouped: group `g`, member `k` is channel `8 g + k`. -/
theorem v32_at (e : Fin 262144) (g : Fin 16) (k : Fin 8) :
    val_main_v32 (F := Ideal) x0 x1 x2 x3 x4 x5 x6 (ValueIdx.ix3 e g k) = (((hid x0 x1 x2 x3 x4 x5 x6 e.val) (8 * g.val + k.val) : ℝ) : EReal) := by
  have hg := g.isLt; have hk := k.isLt; have he := e.isLt
  have hc : 8 * g.val + k.val < 128 := by omega
  rw [val_main_v32_apply]
  have hi : idx_main_v32 (ValueIdx.ix3 e g k) = ValueIdx.ix2 e ⟨8 * g.val + k.val, hc⟩ := by
    funext a
    match a with
    | ⟨0, _⟩ => exact Fin.ext (by show ((e.val * 16 + g.val) * 8 + k.val) / 128 = e.val; omega)
    | ⟨1, _⟩ => exact Fin.ext (by show ((e.val * 16 + g.val) * 8 + k.val) % 128 = 8 * g.val + k.val; omega)
  rw [hi]
  exact v31_at h0 h1 h2 h3 h4 h5 h6 e ⟨_, hc⟩

include h0 h1 h2 h3 h4 h5 h6 in
/-- The sum over a group. -/
theorem v33_at (e : Fin 262144) (g : Fin 16) :
    val_main_v33 (F := Ideal) x0 x1 x2 x3 x4 x5 x6 (ValueIdx.ix2 e g) = ((∑ k : Fin 8, (hid x0 x1 x2 x3 x4 x5 x6 e.val) (8 * g.val + k.val) : ℝ) : EReal) := by
  rw [val_main_v33_apply, val_main_cst_4_apply]
  have hk : ∀ k : Fin 8, val_main_v32 (F := Ideal) x0 x1 x2 x3 x4 x5 x6 (idx_main_v33 (ValueIdx.ix2 e g) k) = (((hid x0 x1 x2 x3 x4 x5 x6 e.val) (8 * g.val + k.val) : ℝ) : EReal) := fun k => by
    rw [show idx_main_v33 (ValueIdx.ix2 e g) k = ValueIdx.ix3 e g k from funext fun a => by match a with | ⟨0, _⟩ => rfl | ⟨1, _⟩ => rfl | ⟨2, _⟩ => rfl]
    exact v32_at h0 h1 h2 h3 h4 h5 h6 e g k
  simp only [hk]
  exact s_sum _

include h0 h1 h2 h3 h4 h5 h6 in
/-- The mean of a group. -/
theorem v36_at (e : Fin 262144) (g : Fin 16) (z : Fin 1) :
    val_main_v36 (F := Ideal) x0 x1 x2 x3 x4 x5 x6 (ValueIdx.ix3 e g z) = ((mu (hid x0 x1 x2 x3 x4 x5 x6 e.val) g.val : ℝ) : EReal) := by
  rw [val_main_v36_apply, val_main_v34_apply, val_main_v35_apply, val_main_cst_5_apply]
  rw [show idx_main_v34 (ValueIdx.ix3 e g z) = ValueIdx.ix2 e g from funext fun a => by match a with | ⟨0, _⟩ => rfl | ⟨1, _⟩ => rfl]
  rw [v33_at h0 h1 h2 h3 h4 h5 h6 e g]
  exact s_div8 _

include h0 h1 h2 h3 h4 h5 h6 in
/-- The deviation from the group's mean. -/
theorem v38_at (e : Fin 262144) (g : Fin 16) (k : Fin 8) :
    val_main_v38 (F := Ideal) x0 x1 x2 x3 x4 x5 x6 (ValueIdx.ix3 e g k) = (((hid x0 x1 x2 x3 x4 x5 x6 e.val) (8 * g.val + k.val) - mu (hid x0 x1 x2 x3 x4 x5 x6 e.val) g.val : ℝ) : EReal) := by
  rw [val_main_v38_apply, val_main_v37_apply]
  rw [show idx_main_v37 (ValueIdx.ix3 e g k) = ValueIdx.ix3 e g (⟨0, Nat.one_pos⟩ : Fin 1) from funext fun a => by match a with | ⟨0, _⟩ => rfl | ⟨1, _⟩ => rfl | ⟨2, _⟩ => rfl]
  rw [v32_at h0 h1 h2 h3 h4 h5 h6 e g k, v36_at h0 h1 h2 h3 h4 h5 h6 e g]
  exact (EReal.coe_sub _ _).symm

include h0 h1 h2 h3 h4 h5 h6 in
/-- The squared deviation. -/
theorem v39_at (e : Fin 262144) (g : Fin 16) (k : Fin 8) :
    val_main_v39 (F := Ideal) x0 x1 x2 x3 x4 x5 x6 (ValueIdx.ix3 e g k)
      = ((((hid x0 x1 x2 x3 x4 x5 x6 e.val) (8 * g.val + k.val) - mu (hid x0 x1 x2 x3 x4 x5 x6 e.val) g.val) * ((hid x0 x1 x2 x3 x4 x5 x6 e.val) (8 * g.val + k.val) - mu (hid x0 x1 x2 x3 x4 x5 x6 e.val) g.val) : ℝ) : EReal) := by
  rw [val_main_v39_apply, v38_at h0 h1 h2 h3 h4 h5 h6 e g k]
  exact (EReal.coe_mul _ _).symm

include h0 h1 h2 h3 h4 h5 h6 in
/-- The sum of the squared deviations of a group. -/
theorem v40_at (e : Fin 262144) (g : Fin 16) :
    val_main_v40 (F := Ideal) x0 x1 x2 x3 x4 x5 x6 (ValueIdx.ix2 e g)
      = ((∑ k : Fin 8, ((hid x0 x1 x2 x3 x4 x5 x6 e.val) (8 * g.val + k.val) - mu (hid x0 x1 x2 x3 x4 x5 x6 e.val) g.val) * ((hid x0 x1 x2 x3 x4 x5 x6 e.val) (8 * g.val + k.val) - mu (hid x0 x1 x2 x3 x4 x5 x6 e.val) g.val) : ℝ) : EReal) := by
  rw [val_main_v40_apply, val_main_cst_6_apply]
  have hk : ∀ k : Fin 8, val_main_v39 (F := Ideal) x0 x1 x2 x3 x4 x5 x6 (idx_main_v40 (ValueIdx.ix2 e g) k)
      = ((((hid x0 x1 x2 x3 x4 x5 x6 e.val) (8 * g.val + k.val) - mu (hid x0 x1 x2 x3 x4 x5 x6 e.val) g.val) * ((hid x0 x1 x2 x3 x4 x5 x6 e.val) (8 * g.val + k.val) - mu (hid x0 x1 x2 x3 x4 x5 x6 e.val) g.val) : ℝ) : EReal) := fun k => by
    rw [show idx_main_v40 (ValueIdx.ix2 e g) k = ValueIdx.ix3 e g k from funext fun a => by match a with | ⟨0, _⟩ => rfl | ⟨1, _⟩ => rfl | ⟨2, _⟩ => rfl]
    exact v39_at h0 h1 h2 h3 h4 h5 h6 e g k
  simp only [hk]
  exact s_sum _

include h0 h1 h2 h3 h4 h5 h6 in
/-- The variance of a group. -/
theorem v43_at (e : Fin 262144) (g : Fin 16) (z : Fin 1) :
    val_main_v43 (F := Ideal) x0 x1 x2 x3 x4 x5 x6 (ValueIdx.ix3 e g z) = ((va (hid x0 x1 x2 x3 x4 x5 x6 e.val) g.val : ℝ) : EReal) := by
  rw [val_main_v43_apply, val_main_v41_apply, val_main_v42_apply, val_main_cst_7_apply]
  rw [show idx_main_v41 (ValueIdx.ix3 e g z) = ValueIdx.ix2 e g from funext fun a => by match a with | ⟨0, _⟩ => rfl | ⟨1, _⟩ => rfl]
  rw [v40_at h0 h1 h2 h3 h4 h5 h6 e g]
  exact s_div8 _

include h0 h1 h2 h3 h4 h5 h6 in
/-- The deviation again (the program forms it twice). -/
theorem v45_at (e : Fin 262144) (g : Fin 16) (k : Fin 8) :
    val_main_v45 (F := Ideal) x0 x1 x2 x3 x4 x5 x6 (ValueIdx.ix3 e g k) = (((hid x0 x1 x2 x3 x4 x5 x6 e.val) (8 * g.val + k.val) - mu (hid x0 x1 x2 x3 x4 x5 x6 e.val) g.val : ℝ) : EReal) := by
  rw [val_main_v45_apply, val_main_v44_apply]
  rw [show idx_main_v44 (ValueIdx.ix3 e g k) = ValueIdx.ix3 e g (⟨0, Nat.one_pos⟩ : Fin 1) from funext fun a => by match a with | ⟨0, _⟩ => rfl | ⟨1, _⟩ => rfl | ⟨2, _⟩ => rfl]
  rw [v32_at h0 h1 h2 h3 h4 h5 h6 e g k, v36_at h0 h1 h2 h3 h4 h5 h6 e g]
  exact (EReal.coe_sub _ _).symm

include h0 h1 h2 h3 h4 h5 h6 in
/-- The square root of the stabilized variance, still as the extended-real operation on a coerced positive real. -/
theorem v48_at (e : Fin 262144) (g : Fin 16) (z : Fin 1) :
    val_main_v48 (F := Ideal) x0 x1 x2 x3 x4 x5 x6 (ValueIdx.ix3 e g z) = Ideal.sqrt ((va (hid x0 x1 x2 x3 x4 x5 x6 e.val) g.val + eps : ℝ) : EReal) := by
  rw [val_main_v48_apply, val_main_v47_apply, val_main_v46_apply, val_main_cst_8_apply]
  rw [v43_at h0 h1 h2 h3 h4 h5 h6 e g z]
  exact congrArg Ideal.sqrt (s_add_eps _)

include h0 h1 h2 h3 h4 h5 h6 in
/-- The normalized member of a group. -/
theorem v50_at (e : Fin 262144) (g : Fin 16) (k : Fin 8) :
    val_main_v50 (F := Ideal) x0 x1 x2 x3 x4 x5 x6 (ValueIdx.ix3 e g k)
      = ((((hid x0 x1 x2 x3 x4 x5 x6 e.val) (8 * g.val + k.val) - mu (hid x0 x1 x2 x3 x4 x5 x6 e.val) g.val) / Real.sqrt (va (hid x0 x1 x2 x3 x4 x5 x6 e.val) g.val + eps) : ℝ) : EReal) := by
  rw [val_main_v50_apply, val_main_v49_apply]
  rw [show idx_main_v49 (ValueIdx.ix3 e g k) = ValueIdx.ix3 e g (⟨0, Nat.one_pos⟩ : Fin 1) from funext fun a => by match a with | ⟨0, _⟩ => rfl | ⟨1, _⟩ => rfl | ⟨2, _⟩ => rfl]
  rw [v45_at h0 h1 h2 h3 h4 h5 h6 e g k, v48_at h0 h1 h2 h3 h4 h5 h6 e g]
  exact coe_div_sqrt (va_eps_pos _ _) _

include h0 h1 h2 h3 h4 h5 h6 in
/-- The normalized row, back on its channels. -/
theorem v51_at (e : Fin 262144) (c : Fin 128) :
    val_main_v51 (F := Ideal) x0 x1 x2 x3 x4 x5 x6 (ValueIdx.ix2 e c)
      = ((((hid x0 x1 x2 x3 x4 x5 x6 e.val) c.val - gmean (hid x0 x1 x2 x3 x4 x5 x6 e.val) c.val) / Real.sqrt (gvar (hid x0 x1 x2 x3 x4 x5 x6 e.val) c.val + eps) : ℝ) : EReal) := by
  have hc := c.isLt; have he := e.isLt
  have hg : c.val / 8 < 16 := by omega
  have hk : c.val % 8 < 8 := by omega
  rw [val_main_v51_apply]
  have hi : idx_main_v51 (ValueIdx.ix2 e c) = ValueIdx.ix3 e (⟨c.val / 8, hg⟩ : Fin 16) (⟨c.val % 8, hk⟩ : Fin 8) := by
    funext a
    match a with
    | ⟨0, _⟩ => exact Fin.ext (by show (e.val * 128 + c.val) / 128 = e.val; omega)
    | ⟨1, _⟩ => exact Fin.ext (by show (e.val * 128 + c.val) / 8 % 16 = c.val / 8; omega)
    | ⟨2, _⟩ => exact Fin.ext (by show (e.val * 128 + c.val) % 8 = c.val % 8; omega)
  rw [hi, v50_at h0 h1 h2 h3 h4 h5 h6 e ⟨c.val / 8, hg⟩ ⟨c.val % 8, hk⟩, gmean_eq, gvar_eq]
  show ((((hid x0 x1 x2 x3 x4 x5 x6 e.val) (8 * (c.val / 8) + c.val % 8) - mu (hid x0 x1 x2 x3 x4 x5 x6 e.val) (c.val / 8)) / Real.sqrt (va (hid x0 x1 x2 x3 x4 x5 x6 e.val) (c.val / 8) + eps) : ℝ) : EReal) = _
  rw [Nat.div_add_mod]

include h0 h1 h2 h3 h4 h5 h6 h7 h8 in
/-- Scaled and shifted. -/
theorem v57_at (e : Fin 262144) (c : Fin 128) :
    val_main_v57 (F := Ideal) x0 x1 x2 x3 x4 x5 x6 x7 x8 (ValueIdx.ix2 e c)
      = ((((hid x0 x1 x2 x3 x4 x5 x6 e.val) c.val - gmean (hid x0 x1 x2 x3 x4 x5 x6 e.val) c.val) / Real.sqrt (gvar (hid x0 x1 x2 x3 x4 x5 x6 e.val) c.val + eps) * vecR x7 c.val + vecR x8 c.val : ℝ) : EReal) := by
  rw [val_main_v57_apply, val_main_v54_apply, val_main_v53_apply, val_main_v52_apply, val_main_v56_apply,
    val_main_v55_apply]
  rw [show idx_main_v52 (idx_main_v53 (ValueIdx.ix2 e c)) = ValueIdx.ix1 c from funext fun a => by match a with | ⟨0, _⟩ => rfl,
    show idx_main_v55 (idx_main_v56 (ValueIdx.ix2 e c)) = ValueIdx.ix1 c from funext fun a => by match a with | ⟨0, _⟩ => rfl]
  rw [v51_at h0 h1 h2 h3 h4 h5 h6 e c, vecR_spec x7 h7 c, vecR_spec x8 h8 c]
  show (((_ : ℝ) : EReal) * ((_ : ℝ) : EReal) + ((_ : ℝ) : EReal)) = _
  rw [← EReal.coe_mul, ← EReal.coe_add]

include h0 h1 h2 h3 h4 h5 h6 h7 h8 in
/-- Rectified: the group normalization of the row at channel `c`. -/
theorem v58_at (e : Fin 262144) (c : Fin 128) :
    val_main_v58 (F := Ideal) x0 x1 x2 x3 x4 x5 x6 x7 x8 (ValueIdx.ix2 e c) = ((gnrelu eps (hid x0 x1 x2 x3 x4 x5 x6 e.val) (vecR x7) (vecR x8) c.val : ℝ) : EReal) := by
  rw [val_main_v58_apply, val_main_call1_v0_apply, val_main_call1_cst_apply, v57_at h0 h1 h2 h3 h4 h5 h6 h7 h8 e c]
  exact s_relu _

/-! ## The second affine layer -/

include h0 h1 h2 h3 h4 h5 h6 h7 h8 h9 h10 in
/-- The second affine layer on the rectified normalized hidden row. -/
theorem v62_at (e : Fin 262144) (j : Fin 128) :
    val_main_v62 (F := Ideal) x0 x1 x2 x3 x4 x5 x6 x7 x8 x9 x10 (ValueIdx.ix2 e j) = ((lin128 (gnrelu eps (hid x0 x1 x2 x3 x4 x5 x6 e.val) (vecR x7) (vecR x8)) (matR x9) (vecR x10) j.val : ℝ) : EReal) := by
  rw [val_main_v62_apply, val_main_v59_apply, val_main_v61_apply, val_main_v60_apply]
  rw [show idx_main_v60 (idx_main_v61 (ValueIdx.ix2 e j)) = ValueIdx.ix1 j from funext fun a => by match a with | ⟨0, _⟩ => rfl, vecR_spec x10 h10 j]
  have hk : ∀ k : Fin 128, val_main_v58 (F := Ideal) x0 x1 x2 x3 x4 x5 x6 x7 x8 (lidx_main_v59 (ValueIdx.ix2 e j) k) * x9 (ridx_main_v59 (ValueIdx.ix2 e j) k)
      = ((gnrelu eps (hid x0 x1 x2 x3 x4 x5 x6 e.val) (vecR x7) (vecR x8) k.val * matR x9 k.val j.val : ℝ) : EReal) := fun k => by
    rw [show lidx_main_v59 (ValueIdx.ix2 e j) k = ValueIdx.ix2 e k from funext fun a => by match a with | ⟨0, _⟩ => rfl | ⟨1, _⟩ => rfl,
      show ridx_main_v59 (ValueIdx.ix2 e j) k = ValueIdx.ix2 k j from funext fun a => by match a with | ⟨0, _⟩ => rfl | ⟨1, _⟩ => rfl]
    rw [v58_at h0 h1 h2 h3 h4 h5 h6 h7 h8 e k, matR_spec x9 h9 k j, ← EReal.coe_mul]
  simp only [hk]
  rw [coe_sum]
  exact (EReal.coe_add _ _).symm

end Stages

/-! ## The result -/

/-- The reference's result at an index is the row formula at the index's row and channel, a real number. -/
theorem result_real (x0 x1 x2 : (⟨S262144x128, .f32⟩ : BufTy).Contents (Elt Ideal)) (x3 x4 : (⟨S384, .f32⟩ : BufTy).Contents (Elt Ideal)) (x5 : (⟨S384x128, .f32⟩ : BufTy).Contents (Elt Ideal))
    (x6 x7 x8 : (⟨S128, .f32⟩ : BufTy).Contents (Elt Ideal)) (x9 : (⟨S128x128, .f32⟩ : BufTy).Contents (Elt Ideal)) (x10 : (⟨S128, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal))
    (i : S262144x128.Idx) :
    val_main_v63 (F := Ideal) x0 x1 x2 x3 x4 x5 x6 x7 x8 x9 x10 i
      = ((out eps (fun c => matR x0 (i 0).val c) (fun c => matR x1 (i 0).val c) (fun c => matR x2 (i 0).val c) (vecR x3) (vecR x4) (matR x5)
          (vecR x6) (vecR x7) (vecR x8) (matR x9) (vecR x10) (i 1).val : ℝ) : EReal) := by
  obtain ⟨e, j, rfl⟩ : ∃ e j, i = ValueIdx.ix2 e j := ⟨i 0, i 1, ValueIdx.eq_ix2 i⟩
  rw [val_main_v63_apply, v62_at h0 h1 h2 h3 h4 h5 h6 h7 h8 h9 h10 e j, matR_spec x2 h2 e j]
  exact (EReal.coe_add _ _).symm

end Cert.ReferenceIdeal.RefValue

end
-- ==== Proof.lean ====
/-
  A fused edge function of a graph network — group normalization over groups of 8 channels, a 384 → 128 affine layer, a
  second group normalization, a 128 → 128 affine layer and a residual — as one blocked kernel, against the same function
  written with whole-array operations.

  Over the extended reals, on finite inputs, both programs compute at row `r`, column `q` the real number
  `Cert.EdgeMlp.out` of row `r` of the three inputs (Proof/EdgeSpec.lean). The reference does so operation by operation
  (Proof/ReferenceRow.lean). The kernel differs in four ways, none of which changes the value on reals: it takes group sums
  as products with 0/1 indicator matrices; it computes a variance as the mean of the squares minus the square of the mean; it
  multiplies by the reciprocal square root instead of dividing by the square root (the variance is not negative and the
  stabilizer is positive, so both act on a positive number); and it normalizes the three inputs separately and adds three
  partial products with slices of the first weight, which is the normalization of the concatenation and the product with
  the whole weight because no group of 8 straddles a boundary at a multiple of 128 (Proof/KernelOps.lean, KernelNorm.lean,
  KernelBody.lean, EdgeSplit.lean). Finiteness of the inputs (Proof/FiniteInputs.lean) is what makes every intermediate a
  real number. The output array is assembled from the 64 row blocks in Proof/RowBlocks.lean and Proof/KernelRows.lean.
  The idealization rewrote nothing, so its statement is trivial; the three frames are the programs' runs.
-/
import proofs.«164875_j15401752724192_2_alg».proof.Defs
import proofs.«164875_j15401752724192_2_alg».proof.Proof.Gen.Kernel
import proofs.«164875_j15401752724192_2_alg».proof.Proof.Gen.Kernel.Skeleton
import proofs.«164875_j15401752724192_2_alg».proof.Proof.Gen.Kernel.Launch
import proofs.«164875_j15401752724192_2_alg».proof.Proof.Gen.Kernel.Points
import proofs.«164875_j15401752724192_2_alg».proof.Proof.Gen.Kernel.Frame
import proofs.«164875_j15401752724192_2_alg».proof.Proof.Gen.KernelIdeal
import proofs.«164875_j15401752724192_2_alg».proof.Proof.Gen.KernelIdeal.Skeleton
import proofs.«164875_j15401752724192_2_alg».proof.Proof.Gen.KernelIdeal.Launch
import proofs.«164875_j15401752724192_2_alg».proof.Proof.Gen.KernelIdeal.Points
import proofs.«164875_j15401752724192_2_alg».proof.Proof.Gen.KernelIdeal.Frame
import proofs.«164875_j15401752724192_2_alg».proof.Proof.Gen.ReferenceIdeal
import proofs.«164875_j15401752724192_2_alg».proof.Proof.Gen.Pre_finite_inputs
import proofs.«164875_j15401752724192_2_alg».proof.Proof.Gen.KernelIdeal.Value
import proofs.«164875_j15401752724192_2_alg».proof.Proof.Gen.ReferenceIdeal.Run
import proofs.«164875_j15401752724192_2_alg».proof.Proof.Gen.ReferenceIdeal.Read
import proofs.«164875_j15401752724192_2_alg».proof.Proof.FiniteInputs
import proofs.«164875_j15401752724192_2_alg».proof.Proof.KernelRows
import proofs.«164875_j15401752724192_2_alg».proof.Proof.ReferenceRow
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the same array: at every entry, the real edge function of that row of the (shared, finite) inputs. -/
theorem algebraic : Cert.algebraic_KernelIdeal_ReferenceIdeal := by
  intro m ρ m' ρ' hpre hagree
  refine ⟨fun c => Cert.KernelIdeal.RowBlocks.wholeOut m c, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  obtain ⟨h0, h1, h2, h3, h4, h5, h6, h7, h8, h9, h10⟩ := Cert.FiniteInputs.real_entries _ _ _ _ _ _ _ _ _ _ _ (hpre c)
  rw [Cert.ReferenceIdeal.Read.val_main_v63_eq, g0, g1, g2, g3, g4, g5, g6, g7, g8, g9, g10]
  funext i
  exact (Cert.ReferenceIdeal.RefValue.result_real _ _ _ _ _ _ _ _ _ _ _ h0 h1 h2 h3 h4 h5 h6 h7 h8 h9 h10 i).trans
    (Cert.KernelIdeal.Row.wholeOut_real m c i _ _ _ _ _ _ _ _ _ _ _ rfl rfl rfl rfl rfl rfl rfl rfl rfl rfl rfl
      h0 h1 h2 h3 h4 h5 h6 h7 h8 h9 h10).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
